-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) (main_arg1 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  main_v8
-- ==== Kernel.lean ====
abbrev S4x4096x128 : Shape := ⟨3, ![4, 4096, 128]⟩
abbrev S4x1x4096 : Shape := ⟨3, ![4, 1, 4096]⟩
abbrev S1x4096x128 : Shape := ⟨3, ![1, 4096, 128]⟩
abbrev S1x512x128 : Shape := ⟨3, ![1, 512, 128]⟩
abbrev S1x1x4096 : Shape := ⟨3, ![1, 1, 4096]⟩
abbrev S1x1x512 : Shape := ⟨3, ![1, 1, 512]⟩
abbrev S4096x1 : Shape := ⟨2, ![4096, 1]⟩
abbrev S4096x128 : Shape := ⟨2, ![4096, 128]⟩
abbrev S4096 : Shape := ⟨1, ![4096]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S4096x512 : Shape := ⟨2, ![4096, 512]⟩
abbrev S1x4096 : Shape := ⟨2, ![1, 4096]⟩
abbrev S_ : Shape := ⟨0, ![]⟩

abbrev nBuf : Space → Nat
  | .hbm => 17
  | .vmem => 11
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x1x4096, .f32⟩
  | .hbm, ⟨3, _⟩ => ⟨S4x1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x4096x128, .f32⟩
  | .local _ .vmem, ⟨1, _⟩ => ⟨S1x4096x128, .f32⟩
  | .local _ .vmem, ⟨2, _⟩ => ⟨S1x512x128, .f32⟩
  | .local _ .vmem, ⟨3, _⟩ => ⟨S1x512x128, .f32⟩
  | .local _ .vmem, ⟨4, _⟩ => ⟨S1x1x4096, .f32⟩
  | .local _ .vmem, ⟨5, _⟩ => ⟨S1x1x4096, .f32⟩
  | .local _ .vmem, ⟨6, _⟩ => ⟨S1x1x512, .f32⟩
  | .local _ .vmem, ⟨7, _⟩ => ⟨S1x1x512, .f32⟩
  | .local _ .vmem, ⟨8, _⟩ => ⟨S4096x1, .f32⟩
  | .local _ .vmem, ⟨9, _⟩ => ⟨S4096x128, .bf16⟩
  | .local _ .vmem, ⟨10, _⟩ => ⟨S4096x1, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_19 : BitVec 32 := 0#32
  let v37 : BitVec 1 := Scalar.cmpi .ne v36 c0_i32_19
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S4096x128_S4096 : S4096x128.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x128_S512 : S512x128.Reduces [1] S512
  shapeCasts_S512_S512x1 : S512.ShapeCasts S512x1
  transposes_S512x1_p1_0_S1x512 : S512x1.Transposes [1, 0] S1x512
  transposes_S512x128_p1_0_S128x512 : S512x128.Transposes [1, 0] S128x512
  broadcasts_S4096x1_S4096x512 : S4096x1.Broadcasts S4096x512
  broadcasts_S1x512_S4096x512 : S1x512.Broadcasts S4096x512
  reduces_S4096x512_S512 : S4096x512.Reduces [0] S512
  shapeCasts_S512_S1x512 : S512.ShapeCasts S1x512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  reduces_S4096x512_S4096 : S4096x512.Reduces [1] S4096
  transposes_S4096x1_p1_0_S1x4096 : S4096x1.Transposes [1, 0] S1x4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  reducesTo_S4x1x4096_S_d0_1_2 : S4x1x4096.ReducesTo [0, 1, 2] S_
  h_S_ : 0 < S_.numel
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x4096x128.size a
  hwx0_1 : ∀ i : grid0.Coords, EltTy.bits .f32 = 32 ∨ (Rect.block (s := S4x4096x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S4x1x4096.size a
  hwx0_2 : ∀ i : grid0.Coords, EltTy.bits .f32 = 32 ∨ (Rect.block (s := S4x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S4x1x4096.size a
  hwx0_3 : ∀ i : grid0.Coords, EltTy.bits .f32 = 32 ∨ (Rect.block (s := S4x1x4096) S1x1x512.size (cc0_transform_3 i) (hinb0_3 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun _ => false | ⟨_ + 4, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x128, .f32⟩
  | .hbm, ⟨3, _⟩ => ⟨S_, .f32⟩
  | .hbm, ⟨4, _⟩ => ⟨S4x4096, .f32⟩
  | .hbm, ⟨5, _⟩ => ⟨S4x4096x128, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_cst_9 : Ref sig .tc := ⟨.hbm, 36, rfl⟩
abbrev main_v19 : Ref sig .tc := ⟨.hbm, 37, rfl⟩
abbrev main_v20 : Ref sig .tc := ⟨.hbm, 38, rfl⟩
abbrev main_cst_10 : Ref sig .tc := ⟨.hbm, 39, rfl⟩
abbrev main_v21 : Ref sig .tc := ⟨.hbm, 40, rfl⟩
abbrev main_cst_11 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d1 : S4x4096x4096.ReducesTo [1] S4x4096
  reducesTo_S4x4096_S_d0_1 : S4x4096.ReducesTo [0, 1] S_
  reducesTo_S4x4096x4096_S4x4096_d2 : S4x4096x4096.ReducesTo [2] S4x4096
  dot_S4x4096x128_S4x4096x128_S4x4096x4096_2_2_1_1_0_0_wf : DotDims.WF S4x4096x128 S4x4096x128 S4x4096x4096 [2] [2] [1] [1] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf

class Facts : Prop extends Facts₀ where

variable [Facts]
-- ==== Proof.BitsBody.Conds.lean ====
/-
  The grid is 4 batches × 8 column tiles, point t = 8·b + j. The body branches on the tile index j only:
  at j = 0 it recomputes the batch's row norms and the scaled bf16 copy of x and resets the running row minimum;
  at j > 0 it folds the tile's row minimum into the running one; at j = 7 it writes the batch's row result.
  Here: those three conditions as the body spells them, each decided over the 32 points in closed form
  (t mod 8), where the row-result window is idle, and the staging and scratch buffers the body is called with.
-/
import proofs.«154106_j14001593385464_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions on the tile index -/

/-- "first tile of the batch" (j = 0), as the body computes it. -/
abbrev condFirst (i : grid0.Coords) : Prop :=
  (Scalar.cmpi .ne (Scalar.extui (Scalar.cmpi .eq (BitVec.ofNat 32 (i 1).val) 0#32)) 0#32) = 1#1
/-- "a later tile" (j > 0, signed compare), as the body computes it. -/
abbrev condLater (i : grid0.Coords) : Prop :=
  (Scalar.cmpi .ne (Scalar.extui (Scalar.cmpi .sgt (BitVec.ofNat 32 (i 1).val) 0#32)) 0#32) = 1#1
/-- "last tile of the batch" (j = 7). -/
abbrev condLast (i : grid0.Coords) : Prop := k0_cond4 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondLater : ∀ t : Fin cfg0.N, condLater (grid0.coords t) ↔ ¬ t.val % 8 = 0 :=
  (by decide +kernel : ∀ t : Fin grid0.N, condLater (grid0.coords t) ↔ ¬ t.val % 8 = 0)
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
/-- Off the last tile the body stores nothing into the row-result window, -/
theorem idle2 : ∀ t : Fin cfg0.N, ¬condLast (grid0.coords t) → cfg0.idle 2 (grid0.coords t) = true := by decide +kernel
/-- and the pipeline does not write its block back there; -/
theorem noFlush2 : ∀ t : Fin cfg0.N, ¬condLast (grid0.coords t) → (cfg0.win 2).flush t = false := by decide +kernel
/-- on the last tile it is stored. -/
theorem live2 : ∀ t : Fin cfg0.N, condLast (grid0.coords t) → cfg0.idle 2 (grid0.coords t) = false := by decide +kernel

/-! ## The buffers the body is called with -/

abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
/-- The three scratch buffers: the row norms ‖x_i‖², the bf16 copy of −2·x, the running row minimum. -/
abbrev scNorm : Memref sig .tc .vmem S4096x1 .f32 := Memref.whole cc0_scratch0
abbrev scXbf : Memref sig .tc .vmem S4096x128 .bf16 := Memref.whole cc0_scratch1
abbrev scAcc : Memref sig .tc .vmem S4096x1 .f32 := Memref.whole cc0_scratch2

/-- One staging buffer of each output window, through which its contents are stated. -/
abbrev VO2 : View sig .tc .vmem S1x1x4096 .f32 := (Memref.whole cc0_stg2_0 : Memref sig .tc .vmem S1x1x4096 .f32).view
abbrev VO3 : View sig .tc .vmem S1x1x512 .f32 := (Memref.whole cc0_stg3_0 : Memref sig .tc .vmem S1x1x512 .f32).view
abbrev VNorm : View sig .tc .vmem S4096x1 .f32 := scNorm.view
abbrev VXbf : View sig .tc .vmem S4096x128 .bf16 := scXbf.view
abbrev VAcc : View sig .tc .vmem S4096x1 .f32 := scAcc.view

/-- The region's invariant with the scratch buffers as whole memrefs owned at some contents. -/
theorem PhiA_eq (c : Dev nD) :
    (Pipeline.ΦA spec0 c : sProp 𝕄)
      = iprop(iprop((∃ d, owns (c : Thread nD τ) scNorm fullShare d) ∗ (∃ d, owns (c : Thread nD τ) scXbf fullShare d) ∗ (∃ d, owns (c : Thread nD τ) scAcc fullShare d)) ∗ (∃ r, prngReg c r)) := by
  unfold Pipeline.ΦA; rw [scopedRest0_eq]; simp only [scNorm, scXbf, scAcc, owns_whole]; try rfl

end Cert.Kernel.Body

end
-- ==== Proof.BitsBody.RunFirst.lean ====
/-
  The body at the first tile of a batch (j = 0). It reads the whole x block, stores the row norms ‖x_i‖² and the bf16 copy
  of −2·x into their scratch buffers, then — as at every tile — reads the y tile, forms the 4096×512 matrix of products from the
  stored copy, stores the tile's clipped column minima into the column-result window, and resets the running row minimum to this tile's.
  The row-result window is not touched. What each written buffer ends with is found by running the body.
-/
import proofs.«154106_j14001593385464_2_alg».proof.Proof.BitsBody.Conds
import proofs.«154106_j14001593385464_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first-tile run: from the x block `x0`, the y tile `x1`, the row-result buffer at contents handed back untouched and
    everything else at any contents, the body ends with the column-result buffer and all three scratch buffers rewritten whole. -/
noncomputable def runFirst (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
    (hcF : condFirst i) (hcL : ¬condLater i) (hcZ : ¬condLast i)
    (x0 : Vec F S1x4096x128 .f32) (x1 : Vec F S1x512x128 .f32) :
    Σ' (L3 : List (View.Piece (Elt F) S1x1x512 .f32)) (LN : List (View.Piece (Elt F) S4096x1 .f32)) (LX : List (View.Piece (Elt F) S4096x128 .bf16)), { LA : List (View.Piece (Elt F) S4096x1 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LN) ∗ (∃ f, arg7.view.loc (c : Thread nD τ) ↦[arg7.view.set]{fullShare} arg7.view.writes (Elt F) f LX) ∗ (∃ f, arg8.view.loc (c : Thread nD τ) ↦[arg8.view.set]{fullShare} arg8.view.writes (Elt F) f LA)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, ?_, ?_, fun xi2 E K => ?run⟩
  case run =>
    haveI : Fact (condFirst i) := ⟨hcF⟩
    haveI : Fact (¬condLater i) := ⟨hcL⟩
    haveI : Fact (¬condLast i) := ⟨hcZ⟩
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%dN, %fN, -, HN⟩, ⟨%dX, %fX, -, HX⟩, ⟨%dA, %fA, -, HA⟩, Hk⟩
    obtain rfl := harg2.eq_unread hf0; obtain rfl := harg3.eq_unread hf1; obtain rfl := harg4.eq_unread hf2
    sl_exec (disch := first | exact hcF | exact hcL | exact hcZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HN]; · iexists _; iexact HN
    isplitl [HX]; · iexists _; iexact HX
    iexists _; iexact HA

end Cert.Kernel.Body

end
-- ==== Proof.BitsBody.RunMiddle.lean ====
/-
  The body at a middle tile of a batch (0 < j < 7). The scratch buffers hold what the batch's first tile stored (row norms, the
  bf16 copy of −2·x) and the running row minimum so far; the body only reads the first two, stores the tile's clipped column minima,
  and replaces the running row minimum by its minimum with this tile's. The row-result window is not touched.
-/
import proofs.«154106_j14001593385464_2_alg».proof.Proof.BitsBody.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The middle-tile run: the norm and copy scratch buffers come back as they were, the running minimum and the column-result
    buffer rewritten whole. -/
noncomputable def runMiddle (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
    (hcF : ¬condFirst i) (hcL : condLater i) (hcZ : ¬condLast i)
    (x0 : Vec F S1x4096x128 .f32) (x1 : Vec F S1x512x128 .f32) (xN : Vec F S4096x1 .f32) (xX : Vec F S4096x128 .bf16) (xA : Vec F S4096x1 .f32) :
    Σ' (L3 : List (View.Piece (Elt F) S1x1x512 .f32)), { LA : List (View.Piece (Elt F) S4096x1 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xN ∗ owns (c : Thread nD τ) arg7 fullShare xX ∗ owns (c : Thread nD τ) arg8 fullShare xA
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ owns (c : Thread nD τ) arg6 fullShare xN ∗ owns (c : Thread nD τ) arg7 fullShare xX ∗ (∃ f, arg8.view.loc (c : Thread nD τ) ↦[arg8.view.set]{fullShare} arg8.view.writes (Elt F) f LA)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, fun xi2 E K => ?run⟩
  case run =>
    haveI : Fact (¬condFirst i) := ⟨hcF⟩
    haveI : Fact (condLater i) := ⟨hcL⟩
    haveI : Fact (¬condLast i) := ⟨hcZ⟩
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fN, %hfN, HN⟩, ⟨%fX, %hfX, HX⟩, ⟨%fA, %hfA, HA⟩, Hk⟩
    obtain rfl := harg2.eq_unread hf0; obtain rfl := harg3.eq_unread hf1; obtain rfl := harg4.eq_unread hf2
    obtain rfl := harg6.eq_unread hfN; obtain rfl := harg7.eq_unread hfX; obtain rfl := harg8.eq_unread hfA
    sl_exec (disch := first | exact hcF | exact hcL | exact hcZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HN]
    · iexists _; isplitr; · ipureintro; exact harg6.read_unread _
      iexact HN
    isplitl [HX]
    · iexists _; isplitr; · ipureintro; exact harg7.read_unread _
      iexact HX
    iexists _; iexact HA

end Cert.Kernel.Body

end
-- ==== Proof.BitsBody.RunLast.lean ====
/-
  The body at the last tile of a batch (j = 7): as at a middle tile, and then the batch's row result — the row norms plus the
  completed running minimum, clipped to [0, 100], laid out as one lane-dense row — is stored into the row-result window.
-/
import proofs.«154106_j14001593385464_2_alg».proof.Proof.BitsBody.RunMiddle

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The last-tile run: as the middle-tile run, with the row-result buffer (at any contents before) rewritten whole as well. -/
noncomputable def runLast (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
    (hcF : ¬condFirst i) (hcL : condLater i) (hcZ : condLast i)
    (x0 : Vec F S1x4096x128 .f32) (x1 : Vec F S1x512x128 .f32) (xN : Vec F S4096x1 .f32) (xX : Vec F S4096x128 .bf16) (xA : Vec F S4096x1 .f32) :
    Σ' (L2 : List (View.Piece (Elt F) S1x1x4096 .f32)) (L3 : List (View.Piece (Elt F) S1x1x512 .f32)), { LA : List (View.Piece (Elt F) S4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xN ∗ owns (c : Thread nD τ) arg7 fullShare xX ∗ owns (c : Thread nD τ) arg8 fullShare xA
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xN ∗ owns (c : Thread nD τ) arg7 fullShare xX ∗ (∃ f, arg8.view.loc (c : Thread nD τ) ↦[arg8.view.set]{fullShare} arg8.view.writes (Elt F) f LA)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, ?_, fun E K => ?run⟩
  case run =>
    haveI : Fact (¬condFirst i) := ⟨hcF⟩
    haveI : Fact (condLater i) := ⟨hcL⟩
    haveI : Fact (condLast i) := ⟨hcZ⟩
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fN, %hfN, HN⟩, ⟨%fX, %hfX, HX⟩, ⟨%fA, %hfA, HA⟩, Hk⟩
    obtain rfl := harg2.eq_unread hf0; obtain rfl := harg3.eq_unread hf1
    obtain rfl := harg6.eq_unread hfN; obtain rfl := harg7.eq_unread hfX; obtain rfl := harg8.eq_unread hfA
    sl_exec (disch := first | exact hcF | exact hcL | exact hcZ)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HN]
    · iexists _; isplitr; · ipureintro; exact harg6.read_unread _
      iexact HN
    isplitl [HX]
    · iexists _; isplitr; · ipureintro; exact harg7.read_unread _
      iexact HX
    iexists _; iexact HA

end Cert.Kernel.Body

end
-- ==== Proof.BitsBody.Frame.lean ====
/-
  The region, point by point. After each point the two output staging buffers and the three scratch buffers hold a state
  (row result, column result, row norms, bf16 copy of −2·x, running row minimum) defined by recursion on the point: the first
  tile of a batch sets the three scratch buffers from the x block alone; a later tile keeps the first two and folds its own row
  minimum into the third; the last tile also writes the row result. The region's invariant carries the three scratch buffers at that
  state from one point to the next; with it the body's three runs give the body obligation at every point, and the launch
  theorem gives the run of the whole program and with it the frame.
-/
import proofs.«154106_j14001593385464_2_alg».proof.Proof.BitsBody.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- Row result, column result, row norms, bf16 copy, running row minimum. -/
abbrev State (F : FTy → Type) [FloatOps F] : Type := Vec F S1x1x4096 .f32 × Vec F S1x1x512 .f32 × Vec F S4096x1 .f32 × Vec F S4096x128 .bf16 × Vec F S4096x1 .f32

/-- The first-tile run at point `t` on the buffers the pipeline passes there. -/
def firstRun (c : Dev nD) (t : Fin cfg0.N) (h0 : t.val % 8 = 0) :=
  runFirst (F := F) c (grid0.coords t) (ms0 t) (hs0 t) (ms1 t) (hs1 t) (ms2 t) (hs2 t) (ms3 t) (hs3 t) scNorm (Memref.isWhole_whole _) scXbf (Memref.isWhole_whole _) scAcc (Memref.isWhole_whole _) ((hcondFirst t).mpr h0) (fun h => (hcondLater t).mp h h0) (fun h => by have h' := (hcondLast t).mp h; omega) (iblk m c 0 t) (iblk m c 1 t)
/-- The middle-tile run at point `t`, from the scratch contents the point before left. -/
def middleRun (c : Dev nD) (t : Fin cfg0.N) (h0 : ¬t.val % 8 = 0) (h7 : ¬t.val % 8 = 7) (p : State F) :=
  runMiddle (F := F) c (grid0.coords t) (ms0 t) (hs0 t) (ms1 t) (hs1 t) (ms2 t) (hs2 t) (ms3 t) (hs3 t) scNorm (Memref.isWhole_whole _) scXbf (Memref.isWhole_whole _) scAcc (Memref.isWhole_whole _) (fun h => h0 ((hcondFirst t).mp h)) ((hcondLater t).mpr h0) (fun h => h7 ((hcondLast t).mp h)) (iblk m c 0 t) (iblk m c 1 t) p.2.2.1 p.2.2.2.1 p.2.2.2.2
/-- The last-tile run at point `t`, from the scratch contents the point before left. -/
def lastRun (c : Dev nD) (t : Fin cfg0.N) (h0 : ¬t.val % 8 = 0) (h7 : t.val % 8 = 7) (p : State F) :=
  runLast (F := F) c (grid0.coords t) (ms0 t) (hs0 t) (ms1 t) (hs1 t) (ms2 t) (hs2 t) (ms3 t) (hs3 t) scNorm (Memref.isWhole_whole _) scXbf (Memref.isWhole_whole _) scAcc (Memref.isWhole_whole _) (fun h => h0 ((hcondFirst t).mp h)) ((hcondLater t).mpr h0) ((hcondLast t).mpr h7) (iblk m c 0 t) (iblk m c 1 t) p.2.2.1 p.2.2.2.1 p.2.2.2.2

/-- After a first tile: everything but the (untouched, unread) row result is what the run's stores leave. -/
def stFirst (c : Dev nD) (t : Fin cfg0.N) (h0 : t.val % 8 = 0) : State F :=
  (VO2.read (Elt F) (VO2.writes (Elt F) VO2.junk []), VO3.read (Elt F) (VO3.writes (Elt F) VO3.junk (firstRun m c t h0).1), VNorm.read (Elt F) (VNorm.writes (Elt F) VNorm.junk (firstRun m c t h0).2.1), VXbf.read (Elt F) (VXbf.writes (Elt F) VXbf.junk (firstRun m c t h0).2.2.1), VAcc.read (Elt F) (VAcc.writes (Elt F) VAcc.junk (firstRun m c t h0).2.2.2.1))
/-- After a middle tile: norms and copy kept, column result and running minimum from the run. -/
def stMiddle (c : Dev nD) (t : Fin cfg0.N) (h0 : ¬t.val % 8 = 0) (h7 : ¬t.val % 8 = 7) (p : State F) : State F :=
  (VO2.read (Elt F) (VO2.writes (Elt F) VO2.junk []), VO3.read (Elt F) (VO3.writes (Elt F) VO3.junk (middleRun m c t h0 h7 p).1), p.2.2.1, p.2.2.2.1, VAcc.read (Elt F) (VAcc.writes (Elt F) VAcc.junk (middleRun m c t h0 h7 p).2.1))
/-- After a last tile: as a middle tile, and the row result from the run. -/
def stLast (c : Dev nD) (t : Fin cfg0.N) (h0 : ¬t.val % 8 = 0) (h7 : t.val % 8 = 7) (p : State F) : State F :=
  (VO2.read (Elt F) (VO2.writes (Elt F) VO2.junk (lastRun m c t h0 h7 p).1), VO3.read (Elt F) (VO3.writes (Elt F) VO3.junk (lastRun m c t h0 h7 p).2.1), p.2.2.1, p.2.2.2.1, VAcc.read (Elt F) (VAcc.writes (Elt F) VAcc.junk (lastRun m c t h0 h7 p).2.2.1))

/-- The state after the point at position `n`. -/
def outsAt (c : Dev nD) : (n : ℕ) → n < cfg0.N → State F
  | 0, hn => stFirst m c ⟨0, hn⟩ (Nat.zero_mod _)
  | n + 1, hn =>
    if h0 : (n + 1) % 8 = 0 then stFirst m c ⟨n + 1, hn⟩ h0
    else if h7 : (n + 1) % 8 = 7 then stLast m c ⟨n + 1, hn⟩ h0 h7 (outsAt c n (Nat.lt_of_succ_lt hn))
    else stMiddle m c ⟨n + 1, hn⟩ h0 h7 (outsAt c n (Nat.lt_of_succ_lt hn))

theorem outsAt_first (c : Dev nD) (t : Fin cfg0.N) (h0 : t.val % 8 = 0) :
    outsAt m c t.val t.isLt = stFirst m c t h0 := by
  obtain ⟨n, hn⟩ := t
  cases n with
  | zero => rfl
  | succ n => exact dif_pos h0

theorem outsAt_middle (c : Dev nD) (t : Fin cfg0.N) (h0 : ¬t.val % 8 = 0) (h7 : ¬t.val % 8 = 7) :
    outsAt m c t.val t.isLt = stMiddle m c t h0 h7 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h7)

theorem outsAt_last (c : Dev nD) (t : Fin cfg0.N) (h0 : ¬t.val % 8 = 0) (h7 : t.val % 8 = 7) :
    outsAt m c t.val t.isLt = stLast m c t h0 h7 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h7)

/-! ## The stores of each run cover the buffers they rewrite -/

theorem cover_first_3 (c : Dev nD) (t : Fin cfg0.N) (h0 : t.val % 8 = 0) (y : S1x1x512.Idx) : ∃ pc ∈ (firstRun (F := F) m c t h0).1, y ∈ pc.1.set :=
  View.cover_of_tiledL (firstRun (F := F) m c t h0).1 S1x1x512.size (by sl_kernel_rfl) y
theorem cover_first_N (c : Dev nD) (t : Fin cfg0.N) (h0 : t.val % 8 = 0) (y : S4096x1.Idx) : ∃ pc ∈ (firstRun (F := F) m c t h0).2.1, y ∈ pc.1.set :=
  View.cover_of_tiledL (firstRun (F := F) m c t h0).2.1 S4096x1.size (by sl_kernel_rfl) y
theorem cover_first_X (c : Dev nD) (t : Fin cfg0.N) (h0 : t.val % 8 = 0) (y : S4096x128.Idx) : ∃ pc ∈ (firstRun (F := F) m c t h0).2.2.1, y ∈ pc.1.set :=
  View.cover_of_tiledL (firstRun (F := F) m c t h0).2.2.1 S4096x128.size (by sl_kernel_rfl) y
theorem cover_first_A (c : Dev nD) (t : Fin cfg0.N) (h0 : t.val % 8 = 0) (y : S4096x1.Idx) : ∃ pc ∈ (firstRun (F := F) m c t h0).2.2.2.1, y ∈ pc.1.set :=
  View.cover_of_tiledL (firstRun (F := F) m c t h0).2.2.2.1 S4096x1.size (by sl_kernel_rfl) y
theorem cover_middle_3 (c : Dev nD) (t : Fin cfg0.N) (h0 : ¬t.val % 8 = 0) (h7 : ¬t.val % 8 = 7) (p : State F) (y : S1x1x512.Idx) : ∃ pc ∈ (middleRun (F := F) m c t h0 h7 p).1, y ∈ pc.1.set :=
  View.cover_of_tiledL (middleRun (F := F) m c t h0 h7 p).1 S1x1x512.size (by sl_kernel_rfl) y
theorem cover_middle_A (c : Dev nD) (t : Fin cfg0.N) (h0 : ¬t.val % 8 = 0) (h7 : ¬t.val % 8 = 7) (p : State F) (y : S4096x1.Idx) : ∃ pc ∈ (middleRun (F := F) m c t h0 h7 p).2.1, y ∈ pc.1.set :=
  View.cover_of_tiledL (middleRun (F := F) m c t h0 h7 p).2.1 S4096x1.size (by sl_kernel_rfl) y
theorem cover_last_2 (c : Dev nD) (t : Fin cfg0.N) (h0 : ¬t.val % 8 = 0) (h7 : t.val % 8 = 7) (p : State F) (y : S1x1x4096.Idx) : ∃ pc ∈ (lastRun (F := F) m c t h0 h7 p).1, y ∈ pc.1.set :=
  View.cover_of_tiledL (lastRun (F := F) m c t h0 h7 p).1 S1x1x4096.size (by sl_kernel_rfl) y
theorem cover_last_3 (c : Dev nD) (t : Fin cfg0.N) (h0 : ¬t.val % 8 = 0) (h7 : t.val % 8 = 7) (p : State F) (y : S1x1x512.Idx) : ∃ pc ∈ (lastRun (F := F) m c t h0 h7 p).2.1, y ∈ pc.1.set :=
  View.cover_of_tiledL (lastRun (F := F) m c t h0 h7 p).2.1 S1x1x512.size (by sl_kernel_rfl) y
theorem cover_last_A (c : Dev nD) (t : Fin cfg0.N) (h0 : ¬t.val % 8 = 0) (h7 : t.val % 8 = 7) (p : State F) (y : S4096x1.Idx) : ∃ pc ∈ (lastRun (F := F) m c t h0 h7 p).2.2.1, y ∈ pc.1.set :=
  View.cover_of_tiledL (lastRun (F := F) m c t h0 h7 p).2.2.1 S4096x1.size (by sl_kernel_rfl) y

/-! ## The region's invariant: the scratch buffers at the state the point before left -/

def PhiS (c : Dev nD) : (n : ℕ) → n ≤ cfg0.N → sProp 𝕄
  | 0, _ => Pipeline.ΦA spec0 c
  | n + 1, hn => iprop(iprop(owns (c : Thread nD τ) scNorm fullShare (outsAt m c n hn).2.2.1 ∗ owns (c : Thread nD τ) scXbf fullShare (outsAt m c n hn).2.2.2.1 ∗ owns (c : Thread nD τ) scAcc fullShare (outsAt m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scNorm fullShare (outsAt m c n hn).2.2.1 ∗ owns (c : Thread nD τ) scXbf fullShare (outsAt m c n hn).2.2.2.1 ∗ owns (c : Thread nD τ) scAcc fullShare (outsAt m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scNorm fullShare (outsAt m c (n - 1) (by omega)).2.2.1 ∗ owns (c : Thread nD τ) scXbf fullShare (outsAt m c (n - 1) (by omega)).2.2.2.1 ∗ owns (c : Thread nD τ) scAcc fullShare (outsAt m c (n - 1) (by omega)).2.2.2.2) ∗ (∃ r, prngReg c r)) := by
  cases n with
  | zero => exact absurd rfl hz
  | succ n => rfl

/-! ## The proof data -/

/-- The arrays as the region finds them; after the body each input's buffer at its block and each output's at the state's
    component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- At a first tile: the scratch buffers come at anything (the very first point) or at the previous batch's leftovers, which the
    run overwrites either way. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hZ : ¬condLast (grid0.coords t) := fun h => by have h' := (hcondLast t).mp h; omega
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 3 t = owns (c : Thread nD τ) (ms3 t) fullShare ((dats m 0 c).after 3 t) from by
    unfold Dat.leavesExact; rw [live3 t], after_3]
  rw [Dat.leavesExact_idle (dats m 0 c) 2 t (idle2 t hZ) (noFlush2 t hZ)]
  rw [outsAt_first m c t h0]
  unfold stFirst; (try dsimp only)
  by_cases hz : t.val = 0
  · rw [PhiS_castSucc m c t, PhiS_zero m c _ _ hz, PhiA_eq]
    iintro ⟨⟨⟨HN, HX, HA⟩, Hg⟩, Ho, ⟨%d0, H0⟩, ⟨%d1, H1⟩, ⟨%d2, H2⟩, ⟨%d3, H3⟩⟩
    iapply ((firstRun m c t h0).2.2.2.2 _ Set.univ _)
    isplitl [H0]; · iexact H0
    isplitl [H1]; · iexact H1
    isplitl [H2]; · iexact H2
    isplitl [H3]; · iexists _; iexact H3
    isplitl [HN]; · iexact HN
    isplitl [HX]; · iexact HX
    isplitl [HA]; · iexact HA
    iintro ⟨H0, H1, H2, ⟨%e3, H3⟩, ⟨%eN, HN⟩, ⟨%eX, HX⟩, ⟨%eA, HA⟩⟩
    isplitl [HN HX HA Hg]
    · isplitl [HN HX HA]
      · isplitl [HN]
        · unfold owns; iexists _; isplitr
          swap; · iexact HN
          ipureintro; exact View.read_writes_of_cover _ _ _ _ _ (cover_first_N m c t h0)
        isplitl [HX]
        · unfold owns; iexists _; isplitr
          swap; · iexact HX
          ipureintro; exact View.read_writes_of_cover _ _ _ _ _ (cover_first_X m c t h0)
        unfold owns; iexists _; isplitr
        swap; · iexact HA
        ipureintro; exact View.read_writes_of_cover _ _ _ _ _ (cover_first_A m c t h0)
      iexact Hg
    isplitl [Ho]; · iexact Ho
    isplitl [H0]; · iexact H0
    isplitl [H1]; · iexact H1
    isplitl [H2]; · iexists _; iexact H2
    unfold owns; iexists _; isplitr
    swap; · iexact H3
    ipureintro; exact View.read_writes_of_cover _ _ _ _ _ (cover_first_3 m c t h0)
  · rw [PhiS_castSucc m c t, PhiS_pos m c _ _ hz]
    iintro ⟨⟨⟨HN, HX, HA⟩, Hg⟩, Ho, ⟨%d0, H0⟩, ⟨%d1, H1⟩, ⟨%d2, H2⟩, ⟨%d3, H3⟩⟩
    iapply ((firstRun m c t h0).2.2.2.2 _ Set.univ _)
    isplitl [H0]; · iexact H0
    isplitl [H1]; · iexact H1
    isplitl [H2]; · iexact H2
    isplitl [H3]; · iexists _; iexact H3
    isplitl [HN]; · iexists _; iexact HN
    isplitl [HX]; · iexists _; iexact HX
    isplitl [HA]; · iexists _; iexact HA
    iintro ⟨H0, H1, H2, ⟨%e3, H3⟩, ⟨%eN, HN⟩, ⟨%eX, HX⟩, ⟨%eA, HA⟩⟩
    isplitl [HN HX HA Hg]
    · isplitl [HN HX HA]
      · isplitl [HN]
        · unfold owns; iexists _; isplitr
          swap; · iexact HN
          ipureintro; exact View.read_writes_of_cover _ _ _ _ _ (cover_first_N m c t h0)
        isplitl [HX]
        · unfold owns; iexists _; isplitr
          swap; · iexact HX
          ipureintro; exact View.read_writes_of_cover _ _ _ _ _ (cover_first_X m c t h0)
        unfold owns; iexists _; isplitr
        swap; · iexact HA
        ipureintro; exact View.read_writes_of_cover _ _ _ _ _ (cover_first_A m c t h0)
      iexact Hg
    isplitl [Ho]; · iexact Ho
    isplitl [H0]; · iexact H0
    isplitl [H1]; · iexact H1
    isplitl [H2]; · iexists _; iexact H2
    unfold owns; iexists _; isplitr
    swap; · iexact H3
    ipureintro; exact View.read_writes_of_cover _ _ _ _ _ (cover_first_3 m c t h0)

set_option maxHeartbeats 4800000 in
/-- At a middle tile: the scratch buffers come at the state the point before left; norms and copy go back as they came. -/
theorem sound_middle (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hZ : ¬condLast (grid0.coords t) := fun h => h7 ((hcondLast t).mp h)
  have hz : t.val ≠ 0 := fun h => h0 (by rw [h])
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 3 t = owns (c : Thread nD τ) (ms3 t) fullShare ((dats m 0 c).after 3 t) from by
    unfold Dat.leavesExact; rw [live3 t], after_3]
  rw [Dat.leavesExact_idle (dats m 0 c) 2 t (idle2 t hZ) (noFlush2 t hZ)]
  rw [outsAt_middle m c t h0 h7]
  unfold stMiddle; (try dsimp only)
  rw [PhiS_castSucc m c t, PhiS_pos m c _ _ hz]
  iintro ⟨⟨⟨HN, HX, HA⟩, Hg⟩, Ho, ⟨%d0, H0⟩, ⟨%d1, H1⟩, ⟨%d2, H2⟩, ⟨%d3, H3⟩⟩
  iapply ((middleRun m c t h0 h7 (outsAt m c (t.val - 1) (Nat.lt_of_le_of_lt (Nat.sub_le _ _) t.isLt))).2.2 _ Set.univ _)
  isplitl [H0]; · iexact H0
  isplitl [H1]; · iexact H1
  isplitl [H2]; · iexact H2
  isplitl [H3]; · iexists _; iexact H3
  isplitl [HN]; · iexact HN
  isplitl [HX]; · iexact HX
  isplitl [HA]; · iexact HA
  iintro ⟨H0, H1, H2, ⟨%e3, H3⟩, HN, HX, ⟨%eA, HA⟩⟩
  isplitl [HN HX HA Hg]
  · isplitl [HN HX HA]
    · isplitl [HN]; · iexact HN
      isplitl [HX]; · iexact HX
      unfold owns; iexists _; isplitr
      swap; · iexact HA
      ipureintro; exact View.read_writes_of_cover _ _ _ _ _ (cover_middle_A m c t h0 h7 _)
    iexact Hg
  isplitl [Ho]; · iexact Ho
  isplitl [H0]; · iexact H0
  isplitl [H1]; · iexact H1
  isplitl [H2]; · iexists _; iexact H2
  unfold owns; iexists _; isplitr
  swap; · iexact H3
  ipureintro; exact View.read_writes_of_cover _ _ _ _ _ (cover_middle_3 m c t h0 h7 _)

set_option maxHeartbeats 4800000 in
/-- At a last tile: as a middle tile, the row-result buffer (at anything before) rewritten too. -/
theorem sound_last (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hZ : condLast (grid0.coords t) := (hcondLast t).mpr h7
  have hz : t.val ≠ 0 := fun h => h0 (by rw [h])
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t hZ], after_2]
  rw [show (dats m 0 c).leavesExact 3 t = owns (c : Thread nD τ) (ms3 t) fullShare ((dats m 0 c).after 3 t) from by
    unfold Dat.leavesExact; rw [live3 t], after_3]
  rw [outsAt_last m c t h0 h7]
  unfold stLast; (try dsimp only)
  rw [PhiS_castSucc m c t, PhiS_pos m c _ _ hz]
  iintro ⟨⟨⟨HN, HX, HA⟩, Hg⟩, Ho, ⟨%d0, H0⟩, ⟨%d1, H1⟩, ⟨%d2, H2⟩, ⟨%d3, H3⟩⟩
  iapply ((lastRun m c t h0 h7 (outsAt m c (t.val - 1) (Nat.lt_of_le_of_lt (Nat.sub_le _ _) t.isLt))).2.2.2 Set.univ _)
  isplitl [H0]; · iexact H0
  isplitl [H1]; · iexact H1
  isplitl [H2]; · iexists _; iexact H2
  isplitl [H3]; · iexists _; iexact H3
  isplitl [HN]; · iexact HN
  isplitl [HX]; · iexact HX
  isplitl [HA]; · iexact HA
  iintro ⟨H0, H1, ⟨%e2, H2⟩, ⟨%e3, H3⟩, HN, HX, ⟨%eA, HA⟩⟩
  isplitl [HN HX HA Hg]
  · isplitl [HN HX HA]
    · isplitl [HN]; · iexact HN
      isplitl [HX]; · iexact HX
      unfold owns; iexists _; isplitr
      swap; · iexact HA
      ipureintro; exact View.read_writes_of_cover _ _ _ _ _ (cover_last_A m c t h0 h7 _)
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover_last_2 m c t h0 h7 _)
  unfold owns; iexists _; isplitr
  swap; · iexact H3
  ipureintro; exact View.read_writes_of_cover _ _ _ _ _ (cover_last_3 m c t h0 h7 _)

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h0 h7
    · exact sound_middle m c t h0 h7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HN, HX, HA⟩, Hg⟩
  isplitl [HN HX HA]
  · isplitl [HN]; · iexists _; iexact HN
    isplitl [HX]; · iexists _; iexact HX
    iexists _; iexact HA
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, nothing faulting, with every array of the pipeline at what the proof
    data computes and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealBody.Conds.lean ====
/-
  The grid is 4 batches × 8 column tiles, point t = 8·b + j. The body branches on the tile index j only:
  at j = 0 it recomputes the batch's row norms and the scaled bf16 copy of x and resets the running row minimum;
  at j > 0 it folds the tile's row minimum into the running one; at j = 7 it writes the batch's row result.
  Here: those three conditions as the body spells them, each decided over the 32 points in closed form
  (t mod 8), where the row-result window is idle, and the staging and scratch buffers the body is called with.
-/
import proofs.«154106_j14001593385464_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions on the tile index -/

/-- "first tile of the batch" (j = 0), as the body computes it. -/
abbrev condFirst (i : grid0.Coords) : Prop :=
  (Scalar.cmpi .ne (Scalar.extui (Scalar.cmpi .eq (BitVec.ofNat 32 (i 1).val) 0#32)) 0#32) = 1#1
/-- "a later tile" (j > 0, signed compare), as the body computes it. -/
abbrev condLater (i : grid0.Coords) : Prop :=
  (Scalar.cmpi .ne (Scalar.extui (Scalar.cmpi .sgt (BitVec.ofNat 32 (i 1).val) 0#32)) 0#32) = 1#1
/-- "last tile of the batch" (j = 7). -/
abbrev condLast (i : grid0.Coords) : Prop := k0_cond4 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondLater : ∀ t : Fin cfg0.N, condLater (grid0.coords t) ↔ ¬ t.val % 8 = 0 :=
  (by decide +kernel : ∀ t : Fin grid0.N, condLater (grid0.coords t) ↔ ¬ t.val % 8 = 0)
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
/-- Off the last tile the body stores nothing into the row-result window, -/
theorem idle2 : ∀ t : Fin cfg0.N, ¬condLast (grid0.coords t) → cfg0.idle 2 (grid0.coords t) = true := by decide +kernel
/-- and the pipeline does not write its block back there; -/
theorem noFlush2 : ∀ t : Fin cfg0.N, ¬condLast (grid0.coords t) → (cfg0.win 2).flush t = false := by decide +kernel
/-- on the last tile it is stored. -/
theorem live2 : ∀ t : Fin cfg0.N, condLast (grid0.coords t) → cfg0.idle 2 (grid0.coords t) = false := by decide +kernel

/-! ## The buffers the body is called with -/

abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
/-- The three scratch buffers: the row norms ‖x_i‖², the bf16 copy of −2·x, the running row minimum. -/
abbrev scNorm : Memref sig .tc .vmem S4096x1 .f32 := Memref.whole cc0_scratch0
abbrev scXbf : Memref sig .tc .vmem S4096x128 .bf16 := Memref.whole cc0_scratch1
abbrev scAcc : Memref sig .tc .vmem S4096x1 .f32 := Memref.whole cc0_scratch2

/-- One staging buffer of each output window, through which its contents are stated. -/
abbrev VO2 : View sig .tc .vmem S1x1x4096 .f32 := (Memref.whole cc0_stg2_0 : Memref sig .tc .vmem S1x1x4096 .f32).view
abbrev VO3 : View sig .tc .vmem S1x1x512 .f32 := (Memref.whole cc0_stg3_0 : Memref sig .tc .vmem S1x1x512 .f32).view
abbrev VNorm : View sig .tc .vmem S4096x1 .f32 := scNorm.view
abbrev VXbf : View sig .tc .vmem S4096x128 .bf16 := scXbf.view
abbrev VAcc : View sig .tc .vmem S4096x1 .f32 := scAcc.view

/-- The region's invariant with the scratch buffers as whole memrefs owned at some contents. -/
theorem PhiA_eq (c : Dev nD) :
    (Pipeline.ΦA spec0 c : sProp 𝕄)
      = iprop(iprop((∃ d, owns (c : Thread nD τ) scNorm fullShare d) ∗ (∃ d, owns (c : Thread nD τ) scXbf fullShare d) ∗ (∃ d, owns (c : Thread nD τ) scAcc fullShare d)) ∗ (∃ r, prngReg c r)) := by
  unfold Pipeline.ΦA; rw [scopedRest0_eq]; simp only [scNorm, scXbf, scAcc, owns_whole]; try rfl

end Cert.KernelIdeal.Body

end
-- ==== Proof.IdealBody.RunFirst.lean ====
/-
  The body at the first tile of a batch (j = 0). It reads the whole x block, stores the row norms ‖x_i‖² and the bf16 copy
  of −2·x into their scratch buffers, then — as at every tile — reads the y tile, forms the 4096×512 matrix of products from the
  stored copy, stores the tile's clipped column minima into the column-result window, and resets the running row minimum to this tile's.
  The row-result window is not touched. What each written buffer ends with is found by running the body.
-/
import proofs.«154106_j14001593385464_2_alg».proof.Proof.IdealBody.Conds
import proofs.«154106_j14001593385464_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first-tile run: from the x block `x0`, the y tile `x1`, the row-result buffer at contents handed back untouched and
    everything else at any contents, the body ends with the column-result buffer and all three scratch buffers rewritten whole. -/
noncomputable def runFirst (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
    (hcF : condFirst i) (hcL : ¬condLater i) (hcZ : ¬condLast i)
    (x0 : Vec F S1x4096x128 .f32) (x1 : Vec F S1x512x128 .f32) :
    Σ' (L3 : List (View.Piece (Elt F) S1x1x512 .f32)) (LN : List (View.Piece (Elt F) S4096x1 .f32)) (LX : List (View.Piece (Elt F) S4096x128 .bf16)), { LA : List (View.Piece (Elt F) S4096x1 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LN) ∗ (∃ f, arg7.view.loc (c : Thread nD τ) ↦[arg7.view.set]{fullShare} arg7.view.writes (Elt F) f LX) ∗ (∃ f, arg8.view.loc (c : Thread nD τ) ↦[arg8.view.set]{fullShare} arg8.view.writes (Elt F) f LA)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, ?_, ?_, fun xi2 E K => ?run⟩
  case run =>
    haveI : Fact (condFirst i) := ⟨hcF⟩
    haveI : Fact (¬condLater i) := ⟨hcL⟩
    haveI : Fact (¬condLast i) := ⟨hcZ⟩
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%dN, %fN, -, HN⟩, ⟨%dX, %fX, -, HX⟩, ⟨%dA, %fA, -, HA⟩, Hk⟩
    obtain rfl := harg2.eq_unread hf0; obtain rfl := harg3.eq_unread hf1; obtain rfl := harg4.eq_unread hf2
    sl_exec (disch := first | exact hcF | exact hcL | exact hcZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HN]; · iexists _; iexact HN
    isplitl [HX]; · iexists _; iexact HX
    iexists _; iexact HA

end Cert.KernelIdeal.Body

end
-- ==== Proof.IdealBody.RunMiddle.lean ====
/-
  The body at a middle tile of a batch (0 < j < 7). The scratch buffers hold what the batch's first tile stored (row norms, the
  bf16 copy of −2·x) and the running row minimum so far; the body only reads the first two, stores the tile's clipped column minima,
  and replaces the running row minimum by its minimum with this tile's. The row-result window is not touched.
-/
import proofs.«154106_j14001593385464_2_alg».proof.Proof.IdealBody.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The middle-tile run: the norm and copy scratch buffers come back as they were, the running minimum and the column-result
    buffer rewritten whole. -/
noncomputable def runMiddle (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
    (hcF : ¬condFirst i) (hcL : condLater i) (hcZ : ¬condLast i)
    (x0 : Vec F S1x4096x128 .f32) (x1 : Vec F S1x512x128 .f32) (xN : Vec F S4096x1 .f32) (xX : Vec F S4096x128 .bf16) (xA : Vec F S4096x1 .f32) :
    Σ' (L3 : List (View.Piece (Elt F) S1x1x512 .f32)), { LA : List (View.Piece (Elt F) S4096x1 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xN ∗ owns (c : Thread nD τ) arg7 fullShare xX ∗ owns (c : Thread nD τ) arg8 fullShare xA
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ owns (c : Thread nD τ) arg6 fullShare xN ∗ owns (c : Thread nD τ) arg7 fullShare xX ∗ (∃ f, arg8.view.loc (c : Thread nD τ) ↦[arg8.view.set]{fullShare} arg8.view.writes (Elt F) f LA)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, fun xi2 E K => ?run⟩
  case run =>
    haveI : Fact (¬condFirst i) := ⟨hcF⟩
    haveI : Fact (condLater i) := ⟨hcL⟩
    haveI : Fact (¬condLast i) := ⟨hcZ⟩
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fN, %hfN, HN⟩, ⟨%fX, %hfX, HX⟩, ⟨%fA, %hfA, HA⟩, Hk⟩
    obtain rfl := harg2.eq_unread hf0; obtain rfl := harg3.eq_unread hf1; obtain rfl := harg4.eq_unread hf2
    obtain rfl := harg6.eq_unread hfN; obtain rfl := harg7.eq_unread hfX; obtain rfl := harg8.eq_unread hfA
    sl_exec (disch := first | exact hcF | exact hcL | exact hcZ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HN]
    · iexists _; isplitr; · ipureintro; exact harg6.read_unread _
      iexact HN
    isplitl [HX]
    · iexists _; isplitr; · ipureintro; exact harg7.read_unread _
      iexact HX
    iexists _; iexact HA

end Cert.KernelIdeal.Body

end
-- ==== Proof.IdealBody.RunLast.lean ====
/-
  The body at the last tile of a batch (j = 7): as at a middle tile, and then the batch's row result — the row norms plus the
  completed running minimum, clipped to [0, 100], laid out as one lane-dense row — is stored into the row-result window.
-/
import proofs.«154106_j14001593385464_2_alg».proof.Proof.IdealBody.RunMiddle

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The last-tile run: as the middle-tile run, with the row-result buffer (at any contents before) rewritten whole as well. -/
noncomputable def runLast (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
    (hcF : ¬condFirst i) (hcL : condLater i) (hcZ : condLast i)
    (x0 : Vec F S1x4096x128 .f32) (x1 : Vec F S1x512x128 .f32) (xN : Vec F S4096x1 .f32) (xX : Vec F S4096x128 .bf16) (xA : Vec F S4096x1 .f32) :
    Σ' (L2 : List (View.Piece (Elt F) S1x1x4096 .f32)) (L3 : List (View.Piece (Elt F) S1x1x512 .f32)), { LA : List (View.Piece (Elt F) S4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xN ∗ owns (c : Thread nD τ) arg7 fullShare xX ∗ owns (c : Thread nD τ) arg8 fullShare xA
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xN ∗ owns (c : Thread nD τ) arg7 fullShare xX ∗ (∃ f, arg8.view.loc (c : Thread nD τ) ↦[arg8.view.set]{fullShare} arg8.view.writes (Elt F) f LA)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, ?_, fun E K => ?run⟩
  case run =>
    haveI : Fact (¬condFirst i) := ⟨hcF⟩
    haveI : Fact (condLater i) := ⟨hcL⟩
    haveI : Fact (condLast i) := ⟨hcZ⟩
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fN, %hfN, HN⟩, ⟨%fX, %hfX, HX⟩, ⟨%fA, %hfA, HA⟩, Hk⟩
    obtain rfl := harg2.eq_unread hf0; obtain rfl := harg3.eq_unread hf1
    obtain rfl := harg6.eq_unread hfN; obtain rfl := harg7.eq_unread hfX; obtain rfl := harg8.eq_unread hfA
    sl_exec (disch := first | exact hcF | exact hcL | exact hcZ)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HN]
    · iexists _; isplitr; · ipureintro; exact harg6.read_unread _
      iexact HN
    isplitl [HX]
    · iexists _; isplitr; · ipureintro; exact harg7.read_unread _
      iexact HX
    iexists _; iexact HA

end Cert.KernelIdeal.Body

end
-- ==== Proof.IdealBody.Frame.lean ====
/-
  The region, point by point. After each point the two output staging buffers and the three scratch buffers hold a state
  (row result, column result, row norms, bf16 copy of −2·x, running row minimum) defined by recursion on the point: the first
  tile of a batch sets the three scratch buffers from the x block alone; a later tile keeps the first two and folds its own row
  minimum into the third; the last tile also writes the row result. The region's invariant carries the three scratch buffers at that
  state from one point to the next; with it the body's three runs give the body obligation at every point, and the launch
  theorem gives the run of the whole program and with it the frame.
-/
import proofs.«154106_j14001593385464_2_alg».proof.Proof.IdealBody.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- Row result, column result, row norms, bf16 copy, running row minimum. -/
abbrev State (F : FTy → Type) [FloatOps F] : Type := Vec F S1x1x4096 .f32 × Vec F S1x1x512 .f32 × Vec F S4096x1 .f32 × Vec F S4096x128 .bf16 × Vec F S4096x1 .f32

/-- The first-tile run at point `t` on the buffers the pipeline passes there. -/
def firstRun (c : Dev nD) (t : Fin cfg0.N) (h0 : t.val % 8 = 0) :=
  runFirst (F := F) c (grid0.coords t) (ms0 t) (hs0 t) (ms1 t) (hs1 t) (ms2 t) (hs2 t) (ms3 t) (hs3 t) scNorm (Memref.isWhole_whole _) scXbf (Memref.isWhole_whole _) scAcc (Memref.isWhole_whole _) ((hcondFirst t).mpr h0) (fun h => (hcondLater t).mp h h0) (fun h => by have h' := (hcondLast t).mp h; omega) (iblk m c 0 t) (iblk m c 1 t)
/-- The middle-tile run at point `t`, from the scratch contents the point before left. -/
def middleRun (c : Dev nD) (t : Fin cfg0.N) (h0 : ¬t.val % 8 = 0) (h7 : ¬t.val % 8 = 7) (p : State F) :=
  runMiddle (F := F) c (grid0.coords t) (ms0 t) (hs0 t) (ms1 t) (hs1 t) (ms2 t) (hs2 t) (ms3 t) (hs3 t) scNorm (Memref.isWhole_whole _) scXbf (Memref.isWhole_whole _) scAcc (Memref.isWhole_whole _) (fun h => h0 ((hcondFirst t).mp h)) ((hcondLater t).mpr h0) (fun h => h7 ((hcondLast t).mp h)) (iblk m c 0 t) (iblk m c 1 t) p.2.2.1 p.2.2.2.1 p.2.2.2.2
/-- The last-tile run at point `t`, from the scratch contents the point before left. -/
def lastRun (c : Dev nD) (t : Fin cfg0.N) (h0 : ¬t.val % 8 = 0) (h7 : t.val % 8 = 7) (p : State F) :=
  runLast (F := F) c (grid0.coords t) (ms0 t) (hs0 t) (ms1 t) (hs1 t) (ms2 t) (hs2 t) (ms3 t) (hs3 t) scNorm (Memref.isWhole_whole _) scXbf (Memref.isWhole_whole _) scAcc (Memref.isWhole_whole _) (fun h => h0 ((hcondFirst t).mp h)) ((hcondLater t).mpr h0) ((hcondLast t).mpr h7) (iblk m c 0 t) (iblk m c 1 t) p.2.2.1 p.2.2.2.1 p.2.2.2.2

/-- After a first tile: everything but the (untouched, unread) row result is what the run's stores leave. -/
def stFirst (c : Dev nD) (t : Fin cfg0.N) (h0 : t.val % 8 = 0) : State F :=
  (VO2.read (Elt F) (VO2.writes (Elt F) VO2.junk []), VO3.read (Elt F) (VO3.writes (Elt F) VO3.junk (firstRun m c t h0).1), VNorm.read (Elt F) (VNorm.writes (Elt F) VNorm.junk (firstRun m c t h0).2.1), VXbf.read (Elt F) (VXbf.writes (Elt F) VXbf.junk (firstRun m c t h0).2.2.1), VAcc.read (Elt F) (VAcc.writes (Elt F) VAcc.junk (firstRun m c t h0).2.2.2.1))
/-- After a middle tile: norms and copy kept, column result and running minimum from the run. -/
def stMiddle (c : Dev nD) (t : Fin cfg0.N) (h0 : ¬t.val % 8 = 0) (h7 : ¬t.val % 8 = 7) (p : State F) : State F :=
  (VO2.read (Elt F) (VO2.writes (Elt F) VO2.junk []), VO3.read (Elt F) (VO3.writes (Elt F) VO3.junk (middleRun m c t h0 h7 p).1), p.2.2.1, p.2.2.2.1, VAcc.read (Elt F) (VAcc.writes (Elt F) VAcc.junk (middleRun m c t h0 h7 p).2.1))
/-- After a last tile: as a middle tile, and the row result from the run. -/
def stLast (c : Dev nD) (t : Fin cfg0.N) (h0 : ¬t.val % 8 = 0) (h7 : t.val % 8 = 7) (p : State F) : State F :=
  (VO2.read (Elt F) (VO2.writes (Elt F) VO2.junk (lastRun m c t h0 h7 p).1), VO3.read (Elt F) (VO3.writes (Elt F) VO3.junk (lastRun m c t h0 h7 p).2.1), p.2.2.1, p.2.2.2.1, VAcc.read (Elt F) (VAcc.writes (Elt F) VAcc.junk (lastRun m c t h0 h7 p).2.2.1))

/-- The state after the point at position `n`. -/
def outsAt (c : Dev nD) : (n : ℕ) → n < cfg0.N → State F
  | 0, hn => stFirst m c ⟨0, hn⟩ (Nat.zero_mod _)
  | n + 1, hn =>
    if h0 : (n + 1) % 8 = 0 then stFirst m c ⟨n + 1, hn⟩ h0
    else if h7 : (n + 1) % 8 = 7 then stLast m c ⟨n + 1, hn⟩ h0 h7 (outsAt c n (Nat.lt_of_succ_lt hn))
    else stMiddle m c ⟨n + 1, hn⟩ h0 h7 (outsAt c n (Nat.lt_of_succ_lt hn))

theorem outsAt_first (c : Dev nD) (t : Fin cfg0.N) (h0 : t.val % 8 = 0) :
    outsAt m c t.val t.isLt = stFirst m c t h0 := by
  obtain ⟨n, hn⟩ := t
  cases n with
  | zero => rfl
  | succ n => exact dif_pos h0

theorem outsAt_middle (c : Dev nD) (t : Fin cfg0.N) (h0 : ¬t.val % 8 = 0) (h7 : ¬t.val % 8 = 7) :
    outsAt m c t.val t.isLt = stMiddle m c t h0 h7 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h7)

theorem outsAt_last (c : Dev nD) (t : Fin cfg0.N) (h0 : ¬t.val % 8 = 0) (h7 : t.val % 8 = 7) :
    outsAt m c t.val t.isLt = stLast m c t h0 h7 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h7)

/-! ## The stores of each run cover the buffers they rewrite -/

theorem cover_first_3 (c : Dev nD) (t : Fin cfg0.N) (h0 : t.val % 8 = 0) (y : S1x1x512.Idx) : ∃ pc ∈ (firstRun (F := F) m c t h0).1, y ∈ pc.1.set :=
  View.cover_of_tiledL (firstRun (F := F) m c t h0).1 S1x1x512.size (by sl_kernel_rfl) y
theorem cover_first_N (c : Dev nD) (t : Fin cfg0.N) (h0 : t.val % 8 = 0) (y : S4096x1.Idx) : ∃ pc ∈ (firstRun (F := F) m c t h0).2.1, y ∈ pc.1.set :=
  View.cover_of_tiledL (firstRun (F := F) m c t h0).2.1 S4096x1.size (by sl_kernel_rfl) y
theorem cover_first_X (c : Dev nD) (t : Fin cfg0.N) (h0 : t.val % 8 = 0) (y : S4096x128.Idx) : ∃ pc ∈ (firstRun (F := F) m c t h0).2.2.1, y ∈ pc.1.set :=
  View.cover_of_tiledL (firstRun (F := F) m c t h0).2.2.1 S4096x128.size (by sl_kernel_rfl) y
theorem cover_first_A (c : Dev nD) (t : Fin cfg0.N) (h0 : t.val % 8 = 0) (y : S4096x1.Idx) : ∃ pc ∈ (firstRun (F := F) m c t h0).2.2.2.1, y ∈ pc.1.set :=
  View.cover_of_tiledL (firstRun (F := F) m c t h0).2.2.2.1 S4096x1.size (by sl_kernel_rfl) y
theorem cover_middle_3 (c : Dev nD) (t : Fin cfg0.N) (h0 : ¬t.val % 8 = 0) (h7 : ¬t.val % 8 = 7) (p : State F) (y : S1x1x512.Idx) : ∃ pc ∈ (middleRun (F := F) m c t h0 h7 p).1, y ∈ pc.1.set :=
  View.cover_of_tiledL (middleRun (F := F) m c t h0 h7 p).1 S1x1x512.size (by sl_kernel_rfl) y
theorem cover_middle_A (c : Dev nD) (t : Fin cfg0.N) (h0 : ¬t.val % 8 = 0) (h7 : ¬t.val % 8 = 7) (p : State F) (y : S4096x1.Idx) : ∃ pc ∈ (middleRun (F := F) m c t h0 h7 p).2.1, y ∈ pc.1.set :=
  View.cover_of_tiledL (middleRun (F := F) m c t h0 h7 p).2.1 S4096x1.size (by sl_kernel_rfl) y
theorem cover_last_2 (c : Dev nD) (t : Fin cfg0.N) (h0 : ¬t.val % 8 = 0) (h7 : t.val % 8 = 7) (p : State F) (y : S1x1x4096.Idx) : ∃ pc ∈ (lastRun (F := F) m c t h0 h7 p).1, y ∈ pc.1.set :=
  View.cover_of_tiledL (lastRun (F := F) m c t h0 h7 p).1 S1x1x4096.size (by sl_kernel_rfl) y
theorem cover_last_3 (c : Dev nD) (t : Fin cfg0.N) (h0 : ¬t.val % 8 = 0) (h7 : t.val % 8 = 7) (p : State F) (y : S1x1x512.Idx) : ∃ pc ∈ (lastRun (F := F) m c t h0 h7 p).2.1, y ∈ pc.1.set :=
  View.cover_of_tiledL (lastRun (F := F) m c t h0 h7 p).2.1 S1x1x512.size (by sl_kernel_rfl) y
theorem cover_last_A (c : Dev nD) (t : Fin cfg0.N) (h0 : ¬t.val % 8 = 0) (h7 : t.val % 8 = 7) (p : State F) (y : S4096x1.Idx) : ∃ pc ∈ (lastRun (F := F) m c t h0 h7 p).2.2.1, y ∈ pc.1.set :=
  View.cover_of_tiledL (lastRun (F := F) m c t h0 h7 p).2.2.1 S4096x1.size (by sl_kernel_rfl) y

/-! ## The region's invariant: the scratch buffers at the state the point before left -/

def PhiS (c : Dev nD) : (n : ℕ) → n ≤ cfg0.N → sProp 𝕄
  | 0, _ => Pipeline.ΦA spec0 c
  | n + 1, hn => iprop(iprop(owns (c : Thread nD τ) scNorm fullShare (outsAt m c n hn).2.2.1 ∗ owns (c : Thread nD τ) scXbf fullShare (outsAt m c n hn).2.2.2.1 ∗ owns (c : Thread nD τ) scAcc fullShare (outsAt m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scNorm fullShare (outsAt m c n hn).2.2.1 ∗ owns (c : Thread nD τ) scXbf fullShare (outsAt m c n hn).2.2.2.1 ∗ owns (c : Thread nD τ) scAcc fullShare (outsAt m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scNorm fullShare (outsAt m c (n - 1) (by omega)).2.2.1 ∗ owns (c : Thread nD τ) scXbf fullShare (outsAt m c (n - 1) (by omega)).2.2.2.1 ∗ owns (c : Thread nD τ) scAcc fullShare (outsAt m c (n - 1) (by omega)).2.2.2.2) ∗ (∃ r, prngReg c r)) := by
  cases n with
  | zero => exact absurd rfl hz
  | succ n => rfl

/-! ## The proof data -/

/-- The arrays as the region finds them; after the body each input's buffer at its block and each output's at the state's
    component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- At a first tile: the scratch buffers come at anything (the very first point) or at the previous batch's leftovers, which the
    run overwrites either way. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hZ : ¬condLast (grid0.coords t) := fun h => by have h' := (hcondLast t).mp h; omega
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 3 t = owns (c : Thread nD τ) (ms3 t) fullShare ((dats m 0 c).after 3 t) from by
    unfold Dat.leavesExact; rw [live3 t], after_3]
  rw [Dat.leavesExact_idle (dats m 0 c) 2 t (idle2 t hZ) (noFlush2 t hZ)]
  rw [outsAt_first m c t h0]
  unfold stFirst; (try dsimp only)
  by_cases hz : t.val = 0
  · rw [PhiS_castSucc m c t, PhiS_zero m c _ _ hz, PhiA_eq]
    iintro ⟨⟨⟨HN, HX, HA⟩, Hg⟩, Ho, ⟨%d0, H0⟩, ⟨%d1, H1⟩, ⟨%d2, H2⟩, ⟨%d3, H3⟩⟩
    iapply ((firstRun m c t h0).2.2.2.2 _ Set.univ _)
    isplitl [H0]; · iexact H0
    isplitl [H1]; · iexact H1
    isplitl [H2]; · iexact H2
    isplitl [H3]; · iexists _; iexact H3
    isplitl [HN]; · iexact HN
    isplitl [HX]; · iexact HX
    isplitl [HA]; · iexact HA
    iintro ⟨H0, H1, H2, ⟨%e3, H3⟩, ⟨%eN, HN⟩, ⟨%eX, HX⟩, ⟨%eA, HA⟩⟩
    isplitl [HN HX HA Hg]
    · isplitl [HN HX HA]
      · isplitl [HN]
        · unfold owns; iexists _; isplitr
          swap; · iexact HN
          ipureintro; exact View.read_writes_of_cover _ _ _ _ _ (cover_first_N m c t h0)
        isplitl [HX]
        · unfold owns; iexists _; isplitr
          swap; · iexact HX
          ipureintro; exact View.read_writes_of_cover _ _ _ _ _ (cover_first_X m c t h0)
        unfold owns; iexists _; isplitr
        swap; · iexact HA
        ipureintro; exact View.read_writes_of_cover _ _ _ _ _ (cover_first_A m c t h0)
      iexact Hg
    isplitl [Ho]; · iexact Ho
    isplitl [H0]; · iexact H0
    isplitl [H1]; · iexact H1
    isplitl [H2]; · iexists _; iexact H2
    unfold owns; iexists _; isplitr
    swap; · iexact H3
    ipureintro; exact View.read_writes_of_cover _ _ _ _ _ (cover_first_3 m c t h0)
  · rw [PhiS_castSucc m c t, PhiS_pos m c _ _ hz]
    iintro ⟨⟨⟨HN, HX, HA⟩, Hg⟩, Ho, ⟨%d0, H0⟩, ⟨%d1, H1⟩, ⟨%d2, H2⟩, ⟨%d3, H3⟩⟩
    iapply ((firstRun m c t h0).2.2.2.2 _ Set.univ _)
    isplitl [H0]; · iexact H0
    isplitl [H1]; · iexact H1
    isplitl [H2]; · iexact H2
    isplitl [H3]; · iexists _; iexact H3
    isplitl [HN]; · iexists _; iexact HN
    isplitl [HX]; · iexists _; iexact HX
    isplitl [HA]; · iexists _; iexact HA
    iintro ⟨H0, H1, H2, ⟨%e3, H3⟩, ⟨%eN, HN⟩, ⟨%eX, HX⟩, ⟨%eA, HA⟩⟩
    isplitl [HN HX HA Hg]
    · isplitl [HN HX HA]
      · isplitl [HN]
        · unfold owns; iexists _; isplitr
          swap; · iexact HN
          ipureintro; exact View.read_writes_of_cover _ _ _ _ _ (cover_first_N m c t h0)
        isplitl [HX]
        · unfold owns; iexists _; isplitr
          swap; · iexact HX
          ipureintro; exact View.read_writes_of_cover _ _ _ _ _ (cover_first_X m c t h0)
        unfold owns; iexists _; isplitr
        swap; · iexact HA
        ipureintro; exact View.read_writes_of_cover _ _ _ _ _ (cover_first_A m c t h0)
      iexact Hg
    isplitl [Ho]; · iexact Ho
    isplitl [H0]; · iexact H0
    isplitl [H1]; · iexact H1
    isplitl [H2]; · iexists _; iexact H2
    unfold owns; iexists _; isplitr
    swap; · iexact H3
    ipureintro; exact View.read_writes_of_cover _ _ _ _ _ (cover_first_3 m c t h0)

set_option maxHeartbeats 4800000 in
/-- At a middle tile: the scratch buffers come at the state the point before left; norms and copy go back as they came. -/
theorem sound_middle (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hZ : ¬condLast (grid0.coords t) := fun h => h7 ((hcondLast t).mp h)
  have hz : t.val ≠ 0 := fun h => h0 (by rw [h])
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 3 t = owns (c : Thread nD τ) (ms3 t) fullShare ((dats m 0 c).after 3 t) from by
    unfold Dat.leavesExact; rw [live3 t], after_3]
  rw [Dat.leavesExact_idle (dats m 0 c) 2 t (idle2 t hZ) (noFlush2 t hZ)]
  rw [outsAt_middle m c t h0 h7]
  unfold stMiddle; (try dsimp only)
  rw [PhiS_castSucc m c t, PhiS_pos m c _ _ hz]
  iintro ⟨⟨⟨HN, HX, HA⟩, Hg⟩, Ho, ⟨%d0, H0⟩, ⟨%d1, H1⟩, ⟨%d2, H2⟩, ⟨%d3, H3⟩⟩
  iapply ((middleRun m c t h0 h7 (outsAt m c (t.val - 1) (Nat.lt_of_le_of_lt (Nat.sub_le _ _) t.isLt))).2.2 _ Set.univ _)
  isplitl [H0]; · iexact H0
  isplitl [H1]; · iexact H1
  isplitl [H2]; · iexact H2
  isplitl [H3]; · iexists _; iexact H3
  isplitl [HN]; · iexact HN
  isplitl [HX]; · iexact HX
  isplitl [HA]; · iexact HA
  iintro ⟨H0, H1, H2, ⟨%e3, H3⟩, HN, HX, ⟨%eA, HA⟩⟩
  isplitl [HN HX HA Hg]
  · isplitl [HN HX HA]
    · isplitl [HN]; · iexact HN
      isplitl [HX]; · iexact HX
      unfold owns; iexists _; isplitr
      swap; · iexact HA
      ipureintro; exact View.read_writes_of_cover _ _ _ _ _ (cover_middle_A m c t h0 h7 _)
    iexact Hg
  isplitl [Ho]; · iexact Ho
  isplitl [H0]; · iexact H0
  isplitl [H1]; · iexact H1
  isplitl [H2]; · iexists _; iexact H2
  unfold owns; iexists _; isplitr
  swap; · iexact H3
  ipureintro; exact View.read_writes_of_cover _ _ _ _ _ (cover_middle_3 m c t h0 h7 _)

set_option maxHeartbeats 4800000 in
/-- At a last tile: as a middle tile, the row-result buffer (at anything before) rewritten too. -/
theorem sound_last (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hZ : condLast (grid0.coords t) := (hcondLast t).mpr h7
  have hz : t.val ≠ 0 := fun h => h0 (by rw [h])
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t hZ], after_2]
  rw [show (dats m 0 c).leavesExact 3 t = owns (c : Thread nD τ) (ms3 t) fullShare ((dats m 0 c).after 3 t) from by
    unfold Dat.leavesExact; rw [live3 t], after_3]
  rw [outsAt_last m c t h0 h7]
  unfold stLast; (try dsimp only)
  rw [PhiS_castSucc m c t, PhiS_pos m c _ _ hz]
  iintro ⟨⟨⟨HN, HX, HA⟩, Hg⟩, Ho, ⟨%d0, H0⟩, ⟨%d1, H1⟩, ⟨%d2, H2⟩, ⟨%d3, H3⟩⟩
  iapply ((lastRun m c t h0 h7 (outsAt m c (t.val - 1) (Nat.lt_of_le_of_lt (Nat.sub_le _ _) t.isLt))).2.2.2 Set.univ _)
  isplitl [H0]; · iexact H0
  isplitl [H1]; · iexact H1
  isplitl [H2]; · iexists _; iexact H2
  isplitl [H3]; · iexists _; iexact H3
  isplitl [HN]; · iexact HN
  isplitl [HX]; · iexact HX
  isplitl [HA]; · iexact HA
  iintro ⟨H0, H1, ⟨%e2, H2⟩, ⟨%e3, H3⟩, HN, HX, ⟨%eA, HA⟩⟩
  isplitl [HN HX HA Hg]
  · isplitl [HN HX HA]
    · isplitl [HN]; · iexact HN
      isplitl [HX]; · iexact HX
      unfold owns; iexists _; isplitr
      swap; · iexact HA
      ipureintro; exact View.read_writes_of_cover _ _ _ _ _ (cover_last_A m c t h0 h7 _)
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover_last_2 m c t h0 h7 _)
  unfold owns; iexists _; isplitr
  swap; · iexact H3
  ipureintro; exact View.read_writes_of_cover _ _ _ _ _ (cover_last_3 m c t h0 h7 _)

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h0 h7
    · exact sound_middle m c t h0 h7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HN, HX, HA⟩, Hg⟩
  isplitl [HN HX HA]
  · isplitl [HN]; · iexists _; iexact HN
    isplitl [HX]; · iexists _; iexact HX
    iexists _; iexact HA
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, nothing faulting, with every array of the pipeline at what the proof
    data computes and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealValue.Pieces.lean ====
/-
  What each of the body's runs leaves, as values: every rewritten buffer ends at its ONE store's payload, the payload's loads read
  through the stores before them — at the first tile the product matrix is formed from the bf16 copy just stored and the column
  result uses the norms just stored; at the last tile the row result uses the running minimum just updated.
-/
import proofs.«154106_j14001593385464_2_alg».proof.Proof.IdealBody.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section first
variable (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
  (hcF : condFirst i) (hcL : ¬condLater i) (hcZ : ¬condLast i) (x0 : Vec F S1x4096x128 .f32) (x1 : Vec F S1x512x128 .f32)

theorem cov_first_3 (y : S1x1x512.Idx) : ∃ pc ∈ (runFirst (F := F) c i arg2 harg2 arg3 harg3 arg4 harg4 arg5 harg5 arg6 harg6 arg7 harg7 arg8 harg8 hcF hcL hcZ x0 x1).1, y ∈ pc.1.set :=
  View.cover_of_tiledL _ S1x1x512.size (by sl_kernel_rfl) y
theorem cov_first_N (y : S4096x1.Idx) : ∃ pc ∈ (runFirst (F := F) c i arg2 harg2 arg3 harg3 arg4 harg4 arg5 harg5 arg6 harg6 arg7 harg7 arg8 harg8 hcF hcL hcZ x0 x1).2.1, y ∈ pc.1.set :=
  View.cover_of_tiledL _ S4096x1.size (by sl_kernel_rfl) y
theorem cov_first_X (y : S4096x128.Idx) : ∃ pc ∈ (runFirst (F := F) c i arg2 harg2 arg3 harg3 arg4 harg4 arg5 harg5 arg6 harg6 arg7 harg7 arg8 harg8 hcF hcL hcZ x0 x1).2.2.1, y ∈ pc.1.set :=
  View.cover_of_tiledL _ S4096x128.size (by sl_kernel_rfl) y
theorem cov_first_A (y : S4096x1.Idx) : ∃ pc ∈ (runFirst (F := F) c i arg2 harg2 arg3 harg3 arg4 harg4 arg5 harg5 arg6 harg6 arg7 harg7 arg8 harg8 hcF hcL hcZ x0 x1).2.2.2.1, y ∈ pc.1.set :=
  View.cover_of_tiledL _ S4096x1.size (by sl_kernel_rfl) y

/-- After a first tile the norm buffer holds the row norms of the x block. -/
theorem first_N : VNorm.read (Elt F) (VNorm.writes (Elt F) VNorm.junk (runFirst (F := F) c i arg2 harg2 arg3 harg3 arg4 harg4 arg5 harg5 arg6 harg6 arg7 harg7 arg8 harg8 hcF hcL hcZ x0 x1).2.1) = k0_pay4 x0 := by
  rw [View.read_writes_eq_canon _ _ _ (cov_first_N c i arg2 harg2 arg3 harg3 arg4 harg4 arg5 harg5 arg6 harg6 arg7 harg7 arg8 harg8 hcF hcL hcZ x0 x1)]
  unfold runFirst
  dsimp only
  sl_unfold_words
  rw [View.canon_unit_zero hz2]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

/-- After a first tile the copy buffer holds the bf16 copy of −2·x. -/
theorem first_X : VXbf.read (Elt F) (VXbf.writes (Elt F) VXbf.junk (runFirst (F := F) c i arg2 harg2 arg3 harg3 arg4 harg4 arg5 harg5 arg6 harg6 arg7 harg7 arg8 harg8 hcF hcL hcZ x0 x1).2.2.1) = k0_pay5 x0 := by
  rw [View.read_writes_eq_canon _ _ _ (cov_first_X c i arg2 harg2 arg3 harg3 arg4 harg4 arg5 harg5 arg6 harg6 arg7 harg7 arg8 harg8 hcF hcL hcZ x0 x1)]
  unfold runFirst
  dsimp only
  sl_unfold_words
  rw [View.canon_unit_zero hz2]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

/-- The first tile's column result: from the y tile, the copy just stored and the norms just stored. -/
theorem first_3 : VO3.read (Elt F) (VO3.writes (Elt F) VO3.junk (runFirst (F := F) c i arg2 harg2 arg3 harg3 arg4 harg4 arg5 harg5 arg6 harg6 arg7 harg7 arg8 harg8 hcF hcL hcZ x0 x1).1) = k0_pay9 x1 (k0_pay5 x0) (k0_pay4 x0) := by
  rw [View.read_writes_eq_canon _ _ _ (cov_first_3 c i arg2 harg2 arg3 harg3 arg4 harg4 arg5 harg5 arg6 harg6 arg7 harg7 arg8 harg8 hcF hcL hcZ x0 x1)]
  unfold runFirst
  dsimp only
  sl_unfold_words
  rw [View.canon_unit_zero hz3]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

/-- The first tile resets the running row minimum to this tile's row minimum. -/
theorem first_A : VAcc.read (Elt F) (VAcc.writes (Elt F) VAcc.junk (runFirst (F := F) c i arg2 harg2 arg3 harg3 arg4 harg4 arg5 harg5 arg6 harg6 arg7 harg7 arg8 harg8 hcF hcL hcZ x0 x1).2.2.2.1) = k0_pay11 x1 (k0_pay5 x0) := by
  rw [View.read_writes_eq_canon _ _ _ (cov_first_A c i arg2 harg2 arg3 harg3 arg4 harg4 arg5 harg5 arg6 harg6 arg7 harg7 arg8 harg8 hcF hcL hcZ x0 x1)]
  unfold runFirst
  dsimp only
  sl_unfold_words
  rw [View.canon_unit_zero hz2]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

end first

section middle
variable (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
  (hcF : ¬condFirst i) (hcL : condLater i) (hcZ : ¬condLast i)
  (x0 : Vec F S1x4096x128 .f32) (x1 : Vec F S1x512x128 .f32) (xN : Vec F S4096x1 .f32) (xX : Vec F S4096x128 .bf16) (xA : Vec F S4096x1 .f32)
theorem cov_middle_3 (y : S1x1x512.Idx) : ∃ pc ∈ (runMiddle (F := F) c i arg2 harg2 arg3 harg3 arg4 harg4 arg5 harg5 arg6 harg6 arg7 harg7 arg8 harg8 hcF hcL hcZ x0 x1 xN xX xA).1, y ∈ pc.1.set :=
  View.cover_of_tiledL _ S1x1x512.size (by sl_kernel_rfl) y
theorem cov_middle_A (y : S4096x1.Idx) : ∃ pc ∈ (runMiddle (F := F) c i arg2 harg2 arg3 harg3 arg4 harg4 arg5 harg5 arg6 harg6 arg7 harg7 arg8 harg8 hcF hcL hcZ x0 x1 xN xX xA).2.1, y ∈ pc.1.set :=
  View.cover_of_tiledL _ S4096x1.size (by sl_kernel_rfl) y

/-- A middle tile's column result: from the y tile and the carried copy and norms. -/
theorem middle_3 : VO3.read (Elt F) (VO3.writes (Elt F) VO3.junk (runMiddle (F := F) c i arg2 harg2 arg3 harg3 arg4 harg4 arg5 harg5 arg6 harg6 arg7 harg7 arg8 harg8 hcF hcL hcZ x0 x1 xN xX xA).1) = k0_pay9 x1 xX xN := by
  rw [View.read_writes_eq_canon _ _ _ (cov_middle_3 c i arg2 harg2 arg3 harg3 arg4 harg4 arg5 harg5 arg6 harg6 arg7 harg7 arg8 harg8 hcF hcL hcZ x0 x1 xN xX xA)]
  unfold runMiddle
  dsimp only
  sl_unfold_words
  rw [View.canon_unit_zero hz3]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

/-- A middle tile folds its row minimum into the running one. -/
theorem middle_A : VAcc.read (Elt F) (VAcc.writes (Elt F) VAcc.junk (runMiddle (F := F) c i arg2 harg2 arg3 harg3 arg4 harg4 arg5 harg5 arg6 harg6 arg7 harg7 arg8 harg8 hcF hcL hcZ x0 x1 xN xX xA).2.1) = k0_pay1 (k0_pay10 x1 xX) xA := by
  rw [View.read_writes_eq_canon _ _ _ (cov_middle_A c i arg2 harg2 arg3 harg3 arg4 harg4 arg5 harg5 arg6 harg6 arg7 harg7 arg8 harg8 hcF hcL hcZ x0 x1 xN xX xA)]
  unfold runMiddle
  dsimp only
  sl_unfold_words
  rw [View.canon_unit_zero hz2]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

end middle

section last
variable (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S4096x1 .f32) (harg6 : arg6.IsWhole) (arg7 : Memref sig .tc .vmem S4096x128 .bf16) (harg7 : arg7.IsWhole) (arg8 : Memref sig .tc .vmem S4096x1 .f32) (harg8 : arg8.IsWhole)
  (hcF : ¬condFirst i) (hcL : condLater i) (hcZ : condLast i)
  (x0 : Vec F S1x4096x128 .f32) (x1 : Vec F S1x512x128 .f32) (xN : Vec F S4096x1 .f32) (xX : Vec F S4096x128 .bf16) (xA : Vec F S4096x1 .f32)
theorem cov_last_2 (y : S1x1x4096.Idx) : ∃ pc ∈ (runLast (F := F) c i arg2 harg2 arg3 harg3 arg4 harg4 arg5 harg5 arg6 harg6 arg7 harg7 arg8 harg8 hcF hcL hcZ x0 x1 xN xX xA).1, y ∈ pc.1.set :=
  View.cover_of_tiledL _ S1x1x4096.size (by sl_kernel_rfl) y
theorem cov_last_3 (y : S1x1x512.Idx) : ∃ pc ∈ (runLast (F := F) c i arg2 harg2 arg3 harg3 arg4 harg4 arg5 harg5 arg6 harg6 arg7 harg7 arg8 harg8 hcF hcL hcZ x0 x1 xN xX xA).2.1, y ∈ pc.1.set :=
  View.cover_of_tiledL _ S1x1x512.size (by sl_kernel_rfl) y
theorem cov_last_A (y : S4096x1.Idx) : ∃ pc ∈ (runLast (F := F) c i arg2 harg2 arg3 harg3 arg4 harg4 arg5 harg5 arg6 harg6 arg7 harg7 arg8 harg8 hcF hcL hcZ x0 x1 xN xX xA).2.2.1, y ∈ pc.1.set :=
  View.cover_of_tiledL _ S4096x1.size (by sl_kernel_rfl) y

/-- The last tile's column result. -/
theorem last_3 : VO3.read (Elt F) (VO3.writes (Elt F) VO3.junk (runLast (F := F) c i arg2 harg2 arg3 harg3 arg4 harg4 arg5 harg5 arg6 harg6 arg7 harg7 arg8 harg8 hcF hcL hcZ x0 x1 xN xX xA).2.1) = k0_pay9 x1 xX xN := by
  rw [View.read_writes_eq_canon _ _ _ (cov_last_3 c i arg2 harg2 arg3 harg3 arg4 harg4 arg5 harg5 arg6 harg6 arg7 harg7 arg8 harg8 hcF hcL hcZ x0 x1 xN xX xA)]
  unfold runLast
  dsimp only
  sl_unfold_words
  rw [View.canon_unit_zero hz3]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

/-- The last tile folds its row minimum into the running one. -/
theorem last_A : VAcc.read (Elt F) (VAcc.writes (Elt F) VAcc.junk (runLast (F := F) c i arg2 harg2 arg3 harg3 arg4 harg4 arg5 harg5 arg6 harg6 arg7 harg7 arg8 harg8 hcF hcL hcZ x0 x1 xN xX xA).2.2.1) = k0_pay1 (k0_pay10 x1 xX) xA := by
  rw [View.read_writes_eq_canon _ _ _ (cov_last_A c i arg2 harg2 arg3 harg3 arg4 harg4 arg5 harg5 arg6 harg6 arg7 harg7 arg8 harg8 hcF hcL hcZ x0 x1 xN xX xA)]
  unfold runLast
  dsimp only
  sl_unfold_words
  rw [View.canon_unit_zero hz2]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

/-- The row result: from the carried norms and the running minimum just completed. -/
theorem last_2 : VO2.read (Elt F) (VO2.writes (Elt F) VO2.junk (runLast (F := F) c i arg2 harg2 arg3 harg3 arg4 harg4 arg5 harg5 arg6 harg6 arg7 harg7 arg8 harg8 hcF hcL hcZ x0 x1 xN xX xA).1) = k0_pay2 xN (k0_pay1 (k0_pay10 x1 xX) xA) := by
  rw [View.read_writes_eq_canon _ _ _ (cov_last_2 c i arg2 harg2 arg3 harg3 arg4 harg4 arg5 harg5 arg6 harg6 arg7 harg7 arg8 harg8 hcF hcL hcZ x0 x1 xN xX xA)]
  unfold runLast
  dsimp only
  sl_unfold_words
  rw [View.canon_unit_zero hz3]
  simp only [View.readCov_unit_zero (S := S4096x128) _ hz2, View.readCov_unit_zero (S := S4096x1) _ hz2, View.readAt_eq_ld, harg2.read_unread, harg3.read_unread, harg4.read_unread, harg5.read_unread, harg6.read_unread, harg7.read_unread, harg8.read_unread, View.ld_unit_zero (S := S1x4096x128) hz3, View.ld_unit_zero (S := S1x512x128) hz3, View.ld_unit_zero (S := S4096x1) hz2, View.ld_unit_zero (S := S4096x128) hz2]

end last

end Cert.KernelIdeal.Body

end
-- ==== Proof.IdealValue.PointValues.lean ====
/-
  The state after a point, component by component, as the body's payloads of the point's two input blocks and of the state
  the point before left: the runs' found stores read back (the piece lemmas) at the buffers the pipeline passes at the point.
-/
import proofs.«154106_j14001593385464_2_alg».proof.Proof.IdealValue.Pieces

set_option maxRecDepth 16384

noncomputable section

open scoped BigOperators

namespace Cert.KernelIdeal.StateVal

open Cert.KernelIdeal Cert.KernelIdeal.Gen Cert.KernelIdeal.Body
open Idealize.ShloMosaic Idealize.ShloMosaic.TcCoe Idealize.SL.Sem

/-! ## The runs' values at a point of the grid (any float instance) -/

section pieces
variable {F : FTy → Type} [FloatOps F]
variable (m : (ℓ : Loc nD τ sig) → Buf (Elt F) ℓ) (c : Dev nD) (t : Fin cfg0.N)

theorem stFirst_N (h0 : t.val % 8 = 0) : (stFirst m c t h0).2.2.1 = k0_pay4 (iblk m c 0 t) := by
  unfold stFirst firstRun
  dsimp only
  exact first_N c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t)

theorem stFirst_X (h0 : t.val % 8 = 0) : (stFirst m c t h0).2.2.2.1 = k0_pay5 (iblk m c 0 t) := by
  unfold stFirst firstRun
  dsimp only
  exact first_X c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t)

theorem stFirst_A (h0 : t.val % 8 = 0) : (stFirst m c t h0).2.2.2.2 = k0_pay11 (iblk m c 1 t) (k0_pay5 (iblk m c 0 t)) := by
  unfold stFirst firstRun
  dsimp only
  exact first_A c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t)

theorem stFirst_3 (h0 : t.val % 8 = 0) : (stFirst m c t h0).2.1 = k0_pay9 (iblk m c 1 t) (k0_pay5 (iblk m c 0 t)) (k0_pay4 (iblk m c 0 t)) := by
  unfold stFirst firstRun
  dsimp only
  exact first_3 c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t)

theorem stMiddle_3 (h0 : ¬t.val % 8 = 0) (h7 : ¬t.val % 8 = 7) (p : State F) : (stMiddle m c t h0 h7 p).2.1 = k0_pay9 (iblk m c 1 t) p.2.2.2.1 p.2.2.1 := by
  unfold stMiddle middleRun
  dsimp only
  exact middle_3 c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t) p.2.2.1 p.2.2.2.1 p.2.2.2.2

theorem stMiddle_A (h0 : ¬t.val % 8 = 0) (h7 : ¬t.val % 8 = 7) (p : State F) : (stMiddle m c t h0 h7 p).2.2.2.2 = k0_pay1 (k0_pay10 (iblk m c 1 t) p.2.2.2.1) p.2.2.2.2 := by
  unfold stMiddle middleRun
  dsimp only
  exact middle_A c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t) p.2.2.1 p.2.2.2.1 p.2.2.2.2

theorem stLast_3 (h0 : ¬t.val % 8 = 0) (h7 : t.val % 8 = 7) (p : State F) : (stLast m c t h0 h7 p).2.1 = k0_pay9 (iblk m c 1 t) p.2.2.2.1 p.2.2.1 := by
  unfold stLast lastRun
  dsimp only
  exact last_3 c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t) p.2.2.1 p.2.2.2.1 p.2.2.2.2

theorem stLast_A (h0 : ¬t.val % 8 = 0) (h7 : t.val % 8 = 7) (p : State F) : (stLast m c t h0 h7 p).2.2.2.2 = k0_pay1 (k0_pay10 (iblk m c 1 t) p.2.2.2.1) p.2.2.2.2 := by
  unfold stLast lastRun
  dsimp only
  exact last_A c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t) p.2.2.1 p.2.2.2.1 p.2.2.2.2

theorem stLast_2 (h0 : ¬t.val % 8 = 0) (h7 : t.val % 8 = 7) (p : State F) : (stLast m c t h0 h7 p).1 = k0_pay2 p.2.2.1 (k0_pay1 (k0_pay10 (iblk m c 1 t) p.2.2.2.1) p.2.2.2.2) := by
  unfold stLast lastRun
  dsimp only
  exact last_2 c (grid0.coords t) (ms0 t) (hs0 t) (ms1 t) (hs1 t) (ms2 t) (hs2 t) (ms3 t) (hs3 t) scNorm (Memref.isWhole_whole _) scXbf (Memref.isWhole_whole _) scAcc (Memref.isWhole_whole _) _ _ _ (iblk m c 0 t) (iblk m c 1 t) p.2.2.1 p.2.2.2.1 p.2.2.2.2

/-- A later tile leaves the norm and copy buffers as the point before left them. -/
theorem stMiddle_N (h0 : ¬t.val % 8 = 0) (h7 : ¬t.val % 8 = 7) (p : State F) : (stMiddle m c t h0 h7 p).2.2.1 = p.2.2.1 := by unfold stMiddle; dsimp only
theorem stMiddle_X (h0 : ¬t.val % 8 = 0) (h7 : ¬t.val % 8 = 7) (p : State F) : (stMiddle m c t h0 h7 p).2.2.2.1 = p.2.2.2.1 := by unfold stMiddle; dsimp only
theorem stLast_N (h0 : ¬t.val % 8 = 0) (h7 : t.val % 8 = 7) (p : State F) : (stLast m c t h0 h7 p).2.2.1 = p.2.2.1 := by unfold stLast; dsimp only
theorem stLast_X (h0 : ¬t.val % 8 = 0) (h7 : t.val % 8 = 7) (p : State F) : (stLast m c t h0 h7 p).2.2.2.1 = p.2.2.2.1 := by unfold stLast; dsimp only
end pieces

end Cert.KernelIdeal.StateVal

end
-- ==== Proof.Spec.lean ====
/-
  The bidirectional chamfer loss of two point clouds, as ONE extended-real number computed from the two argument arrays
  X, Y : [4, 4096, 128], in the two arrangements the two programs use.

  For a batch b, a row i of X and a row j of Y write  ‖x_i‖² = Σ_d X[b,i,d]²,  ‖y_j‖² = Σ_d Y[b,j,d]²,  x_i·y_j = Σ_d X[b,i,d]·Y[b,j,d],
  and clip(v) = min(100, max(0, v)).

  The reference forms the whole matrix  P[i,j] = clip((‖x_i‖² + ‖y_j‖²) − 2·(x_i·y_j)),  takes its column minima (over i) and its
  row minima (over j), averages each over the 4·4096 entries, adds the two means and divides by 4.

  The kernel never forms P: it multiplies x by −2 first, so  S[i,j] = Σ_d (−2·X[b,i,d])·Y[b,j,d],  and moves one norm and the clip
  past each minimum:  column result  clip(‖y_j‖² + min_i (S[i,j] + ‖x_i‖²)),  row result  clip(‖x_i‖² + min_j (S[i,j] + ‖y_j‖²)).
  It adds the two means in the other order.

  The float literals stay as their binary words; the same tail (the two means, their sum, the unit weight, the division by the
  batch size) closes both arrangements.
-/
import Idealize.ShloMosaic.PureOps.Ideal
import Idealize.ShloMosaic.Lib.ValueIdx

noncomputable section

open scoped BigOperators

namespace Cert.Chamfer

open Idealize.ShloMosaic Idealize.ShloMosaic.ValueIdx

/-- An argument array at the ideal instance: an extended real per index of [4, 4096, 128]. -/
abbrev Arr : Type := (⟨3, ![4, 4096, 128]⟩ : Shape).Idx → EReal

/-- An f32 literal's value, by its word. -/
abbrev lit (w : BitVec 32) : EReal := Ideal.ofBits .f32 w

/-- ‖row i of batch b‖². -/
def sq (X : Arr) (b : Fin 4) (i : Fin 4096) : EReal := ∑ d : Fin 128, X (ix3 b i d) * X (ix3 b i d)

/-- x_i · y_j in batch b. -/
def dot (X Y : Arr) (b : Fin 4) (i j : Fin 4096) : EReal := ∑ d : Fin 128, X (ix3 b i d) * Y (ix3 b j d)

/-- The kernel's product entry: (−2·x_i) · y_j, the factor −2.0 (word C0000000) applied to x first. -/
def dotNeg2 (X Y : Arr) (b : Fin 4) (i j : Fin 4096) : EReal := ∑ d : Fin 128, (lit 0xC0000000#32 * X (ix3 b i d)) * Y (ix3 b j d)

/-- min(100.0, max(0.0, v)): words 42C80000 and 00000000. -/
def clip (v : EReal) : EReal := min (lit 0x42C80000#32) (max (lit 0x00000000#32) v)

/-- The tail both programs end with: mean of the first family (sum / 16384.0), mean of the second, their sum, times 1.0, over 4.0. -/
def tail (a b : EReal) : EReal :=
  Ideal.div (lit 0x3F800000#32 * (Ideal.div a (lit 0x46800000#32) + Ideal.div b (lit 0x46800000#32))) (lit 0x40800000#32)

/-! ## The reference's arrangement -/

/-- P[b,i,j] = clip((‖x_i‖² + ‖y_j‖²) − 2.0·(x_i·y_j)), the factor 2.0 being word 40000000. -/
def P (X Y : Arr) (b : Fin 4) (i j : Fin 4096) : EReal := clip ((sq X b i + sq Y b j) - lit 0x40000000#32 * dot X Y b i j)

/-- Column minimum: over the rows i of X. -/
def colRef (X Y : Arr) (b : Fin 4) (j : Fin 4096) : EReal := (Finset.univ : Finset (Fin 4096)).inf fun i => P X Y b i j
/-- Row minimum: over the rows j of Y. -/
def rowRef (X Y : Arr) (b : Fin 4) (i : Fin 4096) : EReal := (Finset.univ : Finset (Fin 4096)).inf fun j => P X Y b i j

/-- The reference's result: the column minima's mean first, then the row minima's. -/
def refLoss (X Y : Arr) : EReal := tail (∑ b : Fin 4, ∑ j : Fin 4096, colRef X Y b j) (∑ b : Fin 4, ∑ i : Fin 4096, rowRef X Y b i)

/-! ## The kernel's arrangement -/

/-- Column result: clip(‖y_j‖² + min_i (S[i,j] + ‖x_i‖²)). -/
def colKer (X Y : Arr) (b : Fin 4) (j : Fin 4096) : EReal :=
  clip (sq Y b j + (Finset.univ : Finset (Fin 4096)).inf fun i => dotNeg2 X Y b i j + sq X b i)
/-- Row result: clip(‖x_i‖² + min_j (S[i,j] + ‖y_j‖²)). -/
def rowKer (X Y : Arr) (b : Fin 4) (i : Fin 4096) : EReal :=
  clip (sq X b i + (Finset.univ : Finset (Fin 4096)).inf fun j => dotNeg2 X Y b i j + sq Y b j)

/-- The kernel's result: the row results' mean first, then the column results'. -/
def kerLoss (X Y : Arr) : EReal := tail (∑ b : Fin 4, ∑ i : Fin 4096, rowKer X Y b i) (∑ b : Fin 4, ∑ j : Fin 4096, colKer X Y b j)

end Cert.Chamfer

end
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibRunningMin.lean ====
/-
  Minima of a matrix, and a minimum kept running over tiles, at the extended reals.

  A `vector.multi_reduction <minimumf>` of an [a, b] matrix along its second axis is, at row i, the accumulator's value met with
  the infimum of the row; along its first axis, at column k, met with the infimum of the column. A minimum updated tile after
  tile — m₀ = f 0, m_{n+1} = min(m_n, f (n+1)) — is after n+1 tiles the infimum of f over `Fin (n+1)`.
-/
import proofs.«154106_j14001593385464_2_alg».proof.Proof.LibMinMaxInf
import Idealize.ShloMosaic.Lib.ValueIdx

noncomputable section

namespace Cert.Lib.RunningMin

open Idealize.ShloMosaic Idealize.ShloMosaic.ValueIdx Cert.Lib.MinMaxInf

/-- The minimum of an `[a, b]` matrix along its second axis, at row `i`: the accumulator met with the row's infimum. -/
theorem rowMin_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.minimumf.neutral φ hφ) (i : Fin a) :
    multiReduction .minimumf [(1 : Fin 2)] ⟨1, ![a]⟩ src acc h hφ hacc (ix1 i)
      = (Ideal.ofBits φ acc ⊓ (Finset.univ : Finset (Fin b)).inf fun k => src (ix2 i k) : EReal) :=
  (multiReduction_minimumf_single src acc h hφ hacc (ix1 i)).trans
    (congrArg (Ideal.ofBits φ acc ⊓ ·) (Finset.inf_congr rfl fun k _ => congrArg src (funext fun c => Fin.ext (by
      match c with
      | ⟨0, _⟩ => rfl
      | ⟨1, _⟩ => rfl))))

/-- The minimum of an `[a, b]` matrix along its first axis, at column `k`: the accumulator met with the column's infimum. -/
theorem colMin_apply {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.minimumf.neutral φ hφ) (k : Fin b) :
    multiReduction .minimumf [(0 : Fin 2)] ⟨1, ![b]⟩ src acc h hφ hacc (ix1 k)
      = (Ideal.ofBits φ acc ⊓ (Finset.univ : Finset (Fin a)).inf fun r => src (ix2 r k) : EReal) :=
  (multiReduction_minimumf_single src acc h hφ hacc (ix1 k)).trans
    (congrArg (Ideal.ofBits φ acc ⊓ ·) (Finset.inf_congr rfl fun r _ => congrArg src (funext fun c => Fin.ext (by
      match c with
      | ⟨0, _⟩ => rfl
      | ⟨1, _⟩ => rfl))))

/-- A minimum kept running: the first tile's value, then `min` with each later tile's. -/
def runMin (f : ℕ → EReal) : ℕ → EReal
  | 0 => f 0
  | n + 1 => min (runMin f n) (f (n + 1))

/-- After tile `n` the running minimum is the infimum over the tiles `0 … n`. -/
theorem runMin_eq_inf_range (f : ℕ → EReal) (n : ℕ) : runMin f n = (Finset.range (n + 1)).inf f := by
  induction n with
  | zero => simp [runMin]
  | succ n ih =>
    rw [runMin, ih, Finset.range_add_one (n := n + 1), Finset.inf_insert]
    exact inf_comm _ _

/-- The naturals below `n` are the values of `Fin n`. -/
theorem map_val_univ (n : ℕ) : (Finset.univ : Finset (Fin n)).map Fin.valEmbedding = Finset.range n := by
  ext i
  constructor
  · intro h
    obtain ⟨a, -, rfl⟩ := Finset.mem_map.mp h
    exact Finset.mem_range.mpr a.isLt
  · intro h
    exact Finset.mem_map.mpr ⟨⟨i, Finset.mem_range.mp h⟩, Finset.mem_univ _, rfl⟩

/-- So a running minimum whose tile values come from a family over `Fin (n + 1)` ends at that family's infimum. -/
theorem runMin_eq_inf_univ {n : ℕ} (g : Fin (n + 1) → EReal) (f : ℕ → EReal) (hf : ∀ j : Fin (n + 1), f j.val = g j) :
    runMin f n = (Finset.univ : Finset (Fin (n + 1))).inf g := by
  rw [runMin_eq_inf_range, ← map_val_univ, Finset.inf_map]
  exact Finset.inf_congr rfl fun j _ => hf j

end Cert.Lib.RunningMin

end
-- ==== Proof.IdealValue.Payloads.lean ====
/-
  The body's arithmetic, entry by entry, over the extended reals.

  From the x block (rows r, 128 features d) the first tile keeps  N[r] = Σ_d x[r,d]²  and the copy  C[r,d] = −2·x[r,d].
  From a y tile (512 columns k) every tile forms  ‖y_k‖² = Σ_d y[k,d]²  and the product  S[r,k] = Σ_d C[r,d]·y[k,d]; its
  column result is  clip(‖y_k‖² + min_r (S[r,k] + N[r]))  and its row minimum  min_k (S[r,k] + ‖y_k‖²), both minima taken
  from +inf. The running row minimum is updated by  min(old, this tile's); the row result is  clip(N[r] + running minimum).
-/
import proofs.«154106_j14001593385464_2_alg».proof.Proof.Gen.KernelIdeal.Skeleton
import proofs.«154106_j14001593385464_2_alg».proof.Proof.Spec
import proofs.«154106_j14001593385464_2_alg».proof.Proof.LibMinMaxInf
import proofs.«154106_j14001593385464_2_alg».proof.Proof.LibKeepdims
import proofs.«154106_j14001593385464_2_alg».proof.Proof.LibRunningMin
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Vals

open Cert.KernelIdeal Cert.KernelIdeal.Gen
open Idealize.ShloMosaic Idealize.ShloMosaic.ValueIdx
open Cert.Lib.Keepdims Cert.Lib.MinMaxInf Cert.Lib.RunningMin Cert.Chamfer

/-- The x block with its unit batch axis dropped. -/
theorem pay3_apply (x : Vec Ideal S1x4096x128 .f32) (r : Fin 4096) (d : Fin 128) :
    k0_pay3 x (ix2 r d) = x (ix3 (0 : Fin 1) r d) := by
  unfold k0_pay3; exact shapeCast_1ab_ab_apply x _ r d

/-- The y tile with its unit batch axis dropped. -/
theorem pay6_apply (y : Vec Ideal S1x512x128 .f32) (k : Fin 512) (d : Fin 128) :
    k0_pay6 y (ix2 k d) = y (ix3 (0 : Fin 1) k d) := by
  unfold k0_pay6; exact shapeCast_1ab_ab_apply y _ k d

/-- The row norms: N[r] = Σ_d x[r,d]². -/
theorem pay4_apply (x : Vec Ideal S1x4096x128 .f32) (r : Fin 4096) (u : Fin 1) :
    k0_pay4 x (ix2 r u) = ∑ d : Fin 128, x (ix3 (0 : Fin 1) r d) * x (ix3 (0 : Fin 1) r d) := by
  unfold k0_pay4; (try dsimp only)
  refine (congrFun (shapeCast_self _ _) _).trans ?_
  refine (shapeCast_a_a1_apply _ _ r u).trans ?_
  refine (rowSum_apply _ _ _ _ _ r).trans ?_
  exact Finset.sum_congr rfl fun d _ => by rw [mulf_apply, pay3_apply]

/-- The copy: C[r,d] = −2·x[r,d] (the change to bf16 is the identity here). -/
theorem pay5_apply (x : Vec Ideal S1x4096x128 .f32) (r : Fin 4096) (d : Fin 128) :
    k0_pay5 x (ix2 r d) = lit 0xC0000000#32 * x (ix3 (0 : Fin 1) r d) := by
  unfold k0_pay5; (try dsimp only)
  refine (congrFun (shapeCast_self _ _) _).trans ?_
  show (lit 0xC0000000#32) * k0_pay3 x (ix2 r d) = _
  rw [pay3_apply]

/-- The tile's column norms, as a row: ‖y_k‖² = Σ_d y[k,d]². -/
theorem pay7_apply (y : Vec Ideal S1x512x128 .f32) (u : Fin 1) (k : Fin 512) :
    k0_pay7 y (ix2 u k) = ∑ d : Fin 128, y (ix3 (0 : Fin 1) k d) * y (ix3 (0 : Fin 1) k d) := by
  unfold k0_pay7; (try dsimp only)
  refine (transpose_ix2_apply _ _ u k).trans ?_
  refine (shapeCast_a_a1_apply _ _ k u).trans ?_
  refine (rowSum_apply _ _ _ _ _ k).trans ?_
  exact Finset.sum_congr rfl fun d _ => by rw [mulf_apply, pay6_apply]

/-! ### The product matrix -/

theorem lhs_0 (j : S4096x512.Idx) (q : dot_S4096x128_S128x512_S4096x512_1_0_0_1_n_n.contr.Idx) : (dot_S4096x128_S128x512_S4096x512_1_0_0_1_n_n.lhsIdx j q 0).val = (j 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl
theorem lhs_1 (j : S4096x512.Idx) (q : dot_S4096x128_S128x512_S4096x512_1_0_0_1_n_n.contr.Idx) : (dot_S4096x128_S128x512_S4096x512_1_0_0_1_n_n.lhsIdx j q 1).val = (q ⟨0, by decide⟩).val :=
  dot_S4096x128_S128x512_S4096x512_1_0_0_1_n_n.lhsIdx_val_of_single rfl j q
theorem rhs_0 (j : S4096x512.Idx) (q : dot_S4096x128_S128x512_S4096x512_1_0_0_1_n_n.contr.Idx) : (dot_S4096x128_S128x512_S4096x512_1_0_0_1_n_n.rhsIdx j q 0).val = (q ⟨0, by decide⟩).val :=
  dot_S4096x128_S128x512_S4096x512_1_0_0_1_n_n.rhsIdx_val_of_single rfl j q
theorem rhs_1 (j : S4096x512.Idx) (q : dot_S4096x128_S128x512_S4096x512_1_0_0_1_n_n.contr.Idx) : (dot_S4096x128_S128x512_S4096x512_1_0_0_1_n_n.rhsIdx j q 1).val = (j 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

/-- S[r,k] = Σ_d C[r,d]·y[k,d], for any stored copy C. -/
theorem pay8_apply (y : Vec Ideal S1x512x128 .f32) (C : Vec Ideal S4096x128 .bf16) (r : Fin 4096) (k : Fin 512) :
    k0_pay8 y C (ix2 r k) = ∑ d : Fin 128, C (ix2 r d) * y (ix3 (0 : Fin 1) k d) := by
  unfold k0_pay8; (try dsimp only)
  simp only [matmul]
  rw [Ideal.matmul_constant_zero_apply, ← Equiv.sum_comp (contrEquiv1 dot_S4096x128_S128x512_S4096x512_1_0_0_1_n_n 128 rfl rfl).symm]
  refine Finset.sum_congr rfl fun d _ => ?_
  have hk := contrEquiv1_symm_val dot_S4096x128_S128x512_S4096x512_1_0_0_1_n_n 128 rfl rfl d
  have el : dot_S4096x128_S128x512_S4096x512_1_0_0_1_n_n.lhsIdx (ix2 r k) ((contrEquiv1 dot_S4096x128_S128x512_S4096x512_1_0_0_1_n_n 128 rfl rfl).symm d) = ix2 r d := funext fun a => Fin.ext (by
    match a with
    | ⟨0, _⟩ => exact lhs_0 _ _
    | ⟨1, _⟩ => exact (lhs_1 _ _).trans hk)
  have er : dot_S4096x128_S128x512_S4096x512_1_0_0_1_n_n.rhsIdx (ix2 r k) ((contrEquiv1 dot_S4096x128_S128x512_S4096x512_1_0_0_1_n_n 128 rfl rfl).symm d) = ix2 d k := funext fun a => Fin.ext (by
    match a with
    | ⟨0, _⟩ => exact (rhs_0 _ _).trans hk
    | ⟨1, _⟩ => exact rhs_1 _ _)
  rw [el, er]
  refine congrArg (C (ix2 r d) * ·) ?_
  refine (transpose_ix2_apply _ _ d k).trans ?_
  exact pay6_apply y k d

/-! ### The two minima, the running update, the row result -/

/-- The tile's row minimum, from +inf: min_k (S[r,k] + ‖y_k‖²). -/
theorem pay10_apply (y : Vec Ideal S1x512x128 .f32) (C : Vec Ideal S4096x128 .bf16) (r : Fin 4096) (u : Fin 1) :
    k0_pay10 y C (ix2 r u)
      = (lit 0x7F800000#32 ⊓ (Finset.univ : Finset (Fin 512)).inf fun k => k0_pay8 y C (ix2 r k) + k0_pay7 y (ix2 (0 : Fin 1) k) : EReal) := by
  unfold k0_pay10; (try dsimp only)
  refine (shapeCast_a_a1_apply _ _ r u).trans ?_
  refine (rowMin_apply _ _ _ _ _ r).trans ?_
  refine congrArg (lit 0x7F800000#32 ⊓ ·) (Finset.inf_congr rfl fun k _ => ?_)
  show k0_pay8 y C (ix2 r k) + broadcastTo S4096x512 (k0_pay7 y) _ (ix2 r k) = _
  exact congrArg (k0_pay8 y C (ix2 r k) + ·) (broadcastTo_1b_ab_apply _ _ r k)

/-- What the first tile stores as the running minimum is its own row minimum. -/
theorem pay11_eq (y : Vec Ideal S1x512x128 .f32) (C : Vec Ideal S4096x128 .bf16) : k0_pay11 y C = k0_pay10 y C := by
  unfold k0_pay11; exact shapeCast_self _ _

/-- The running update: min(old, this tile's). -/
theorem pay1_apply (v : FVec Ideal S4096x1 .f32) (A : Vec Ideal S4096x1 .f32) (i : S4096x1.Idx) :
    k0_pay1 v A i = min (A i) (v i) := by
  unfold k0_pay1; (try dsimp only)
  exact congrFun (shapeCast_self _ _) i

/-- The tile's column result: clip(‖y_k‖² + min_r (S[r,k] + N[r])), the minimum from +inf. -/
theorem pay9_apply (y : Vec Ideal S1x512x128 .f32) (C : Vec Ideal S4096x128 .bf16) (N : Vec Ideal S4096x1 .f32)
    (u0 u1 : Fin 1) (k : Fin 512) :
    k0_pay9 y C N (ix3 u0 u1 k)
      = clip (k0_pay7 y (ix2 u1 k) + (lit 0x7F800000#32 ⊓ (Finset.univ : Finset (Fin 4096)).inf fun r => k0_pay8 y C (ix2 r k) + N (ix2 r (0 : Fin 1)))) := by
  unfold k0_pay9; (try dsimp only)
  refine (shapeCast_ab_1ab_apply _ _ u0 u1 k).trans ?_
  show min (lit 0x42C80000#32) (max (lit 0x00000000#32) (k0_pay7 y (ix2 u1 k) + shapeCast S1x512 _ _ (ix2 u1 k))) = _
  unfold clip
  refine congrArg (fun v => min (lit 0x42C80000#32) (max (lit 0x00000000#32) (k0_pay7 y (ix2 u1 k) + v))) ?_
  refine (shapeCast_a_1a_apply _ _ u1 k).trans ?_
  refine (colMin_apply _ _ _ _ _ k).trans ?_
  refine congrArg (lit 0x7F800000#32 ⊓ ·) (Finset.inf_congr rfl fun r _ => ?_)
  show k0_pay8 y C (ix2 r k) + broadcastTo S4096x512 N _ (ix2 r k) = _
  exact congrArg (k0_pay8 y C (ix2 r k) + ·) (broadcastTo_a1_ab_apply _ _ r k)

/-- The row result: clip(N[r] + running minimum[r]), laid out as one row. -/
theorem pay2_apply (N A : Vec Ideal S4096x1 .f32) (u0 u1 : Fin 1) (r : Fin 4096) :
    k0_pay2 N A (ix3 u0 u1 r) = clip (N (ix2 r u1) + A (ix2 r u1)) := by
  unfold k0_pay2; (try dsimp only)
  refine (shapeCast_ab_1ab_apply _ _ u0 u1 r).trans ?_
  refine (transpose_ix2_apply _ _ u1 r).trans ?_
  unfold clip
  rfl

end Cert.KernelIdeal.Vals

end
-- ==== Proof.IdealValue.Blocks.lean ====
/-
  The two input windows' blocks, read at an index.

  The grid has 4 × 8 points, point t = 8·b + j in row-major order.  The first argument's window takes, at every point of batch b,
  the block [1, 4096, 128] at block index (b, 0, 0): all of batch b.  The second argument's window takes the block [1, 512, 128]
  at block index (b, j, 0): rows 512·j … 512·j + 511 of batch b.  A block's coordinate on an axis is always
  (block index) × (block size) + 1 × (the coordinate inside the block); the block indices are decided once over the 32 points.
-/
import proofs.«154106_j14001593385464_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- A point's number is below 32. -/
theorem t_lt (t : Fin cfg0.N) : t.val < 32 :=
  lt_of_lt_of_eq t.isLt (show cfg0.N = 32 from N_0)

/-- The first window's block index at point t is (t / 8, 0, 0). -/
theorem index0 : ∀ t : Fin grid0.N,
    win0_0.index t (0 : Fin 3) = t.val / 8 ∧ win0_0.index t (1 : Fin 3) = 0 ∧ win0_0.index t (2 : Fin 3) = 0 := by
  decide +kernel

/-- The second window's block index at point t is (t / 8, t % 8, 0). -/
theorem index1 : ∀ t : Fin grid0.N,
    win0_1.index t (0 : Fin 3) = t.val / 8 ∧ win0_1.index t (1 : Fin 3) = t.val % 8 ∧ win0_1.index t (2 : Fin 3) = 0 := by
  decide +kernel

/-- At point t = 8·b + j the first window's block is batch b of the first argument. -/
theorem iblk0_apply (c : Dev nD) (t : Fin cfg0.N) (u : Fin 1) (r : Fin 4096) (d : Fin 128) :
    iblk m c 0 t (ix3 u r d)
      = m ((c.tc : Thread nD τ).loc main_arg0) (ix3 (⟨t.val / 8, by have := t_lt t; omega⟩ : Fin 4) r d) := by
  obtain ⟨h0, h1, h2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * u.val = t.val / 8; rw [h0]; omega
  | ⟨1, _⟩ => show win0_0.index t 1 * 4096 + 1 * r.val = r.val; rw [h1]; omega
  | ⟨2, _⟩ => show win0_0.index t 2 * 128 + 1 * d.val = d.val; rw [h2]; omega

/-- And the second window's block is rows 512·j … 512·j + 511 of batch b of the second argument. -/
theorem iblk1_apply (c : Dev nD) (t : Fin cfg0.N) (u : Fin 1) (k : Fin 512) (d : Fin 128) :
    iblk m c 1 t (ix3 u k d)
      = m ((c.tc : Thread nD τ).loc main_arg1)
          (ix3 (⟨t.val / 8, by have := t_lt t; omega⟩ : Fin 4) (⟨k.val + 512 * (t.val % 8), by have := k.isLt; omega⟩ : Fin 4096) d) := by
  obtain ⟨h0, h1, h2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * u.val = t.val / 8; rw [h0]; omega
  | ⟨1, _⟩ => show win0_1.index t 1 * 512 + 1 * k.val = k.val + 512 * (t.val % 8); rw [h1]; omega
  | ⟨2, _⟩ => show win0_1.index t 2 * 128 + 1 * d.val = d.val; rw [h2]; omega

end Cert.KernelIdeal.Blocks

end
-- ==== Proof.IdealValue.State.lean ====
/-
  The state after every point, in closed form. At point n = 8·b + j (batch b, column tile j):
    the norm buffer holds ‖x_r‖² of batch b, the copy buffer −2·x of batch b (both set at j = 0 and carried);
    the running minimum holds, for each row r, the minimum over the tiles 0 … j of the tile's min_k (S[r,k] + ‖y_k‖²);
    the column-result buffer holds the column results of the tile's 512 columns;
    and at j = 7 the row-result buffer holds the batch's row results, the running minimum then being the minimum over all
    4096 columns. By induction on the point: a first tile needs nothing of the point before; a later tile is in the same batch
    as the point before it and one tile further.
-/
import proofs.«154106_j14001593385464_2_alg».proof.Proof.IdealValue.PointValues
import proofs.«154106_j14001593385464_2_alg».proof.Proof.IdealValue.Payloads
import proofs.«154106_j14001593385464_2_alg».proof.Proof.IdealValue.Blocks

set_option maxRecDepth 16384

noncomputable section

open scoped BigOperators

namespace Cert.KernelIdeal.StateVal

open Cert.KernelIdeal Cert.KernelIdeal.Gen Cert.KernelIdeal.Body Cert.KernelIdeal.Vals Cert.KernelIdeal.Blocks
open Idealize.ShloMosaic Idealize.ShloMosaic.TcCoe Idealize.ShloMosaic.ValueIdx Idealize.SL.Sem
open Cert.Lib.MinMaxInf Cert.Lib.RunningMin Cert.Chamfer

/-! ## A tile's values in terms of the two argument arrays (the ideal instance) -/

section tiles
variable (m : (ℓ : Loc nD τ sig) → Buf (Elt Ideal) ℓ) (c : Dev nD)

/-- The two argument arrays as launched. -/
abbrev XA : Arr := m ((c.tc : Thread nD τ).loc main_arg0)
abbrev YA : Arr := m ((c.tc : Thread nD τ).loc main_arg1)

theorem n_lt (n : ℕ) (h : n < cfg0.N) : n < 32 := lt_of_lt_of_eq h N_0

/-- The batch of the point at position `n`. -/
def bOf (n : ℕ) (h : n < cfg0.N) : Fin 4 := ⟨n / 8, by have := n_lt n h; omega⟩
/-- Column `k` of the tile of the point at position `n`, as a column of the batch. -/
def colOf (n : ℕ) (k : Fin 512) : Fin 4096 := ⟨k.val + 512 * (n % 8), by have := k.isLt; omega⟩

theorem lit_inf : lit 0x7F800000#32 = (⊤ : EReal) := ofBits_posInf_f32

/-- Tile `jj`'s row minimum for row `r` of batch `b`, from +inf (⊤ past the eighth tile: never read). -/
def tileMin (X Y : Arr) (b : Fin 4) (r : Fin 4096) (jj : ℕ) : EReal :=
  if h : jj < 8 then
    lit 0x7F800000#32 ⊓ (Finset.univ : Finset (Fin 512)).inf fun k =>
      dotNeg2 X Y b r ⟨k.val + 512 * jj, by have := k.isLt; omega⟩ + sq Y b ⟨k.val + 512 * jj, by have := k.isLt; omega⟩
  else ⊤

variable (t : Fin cfg0.N)

theorem tile_norm (r : Fin 4096) (u : Fin 1) :
    k0_pay4 (iblk m c 0 t) (ix2 r u) = sq (XA m c) (bOf t.val t.isLt) r :=
  (pay4_apply (iblk m c 0 t) r u).trans (Finset.sum_congr rfl fun d _ => by
    rw [iblk0_apply m c t (0 : Fin 1) r d]; rfl)

theorem tile_copy (r : Fin 4096) (d : Fin 128) :
    k0_pay5 (iblk m c 0 t) (ix2 r d) = lit 0xC0000000#32 * XA m c (ix3 (bOf t.val t.isLt) r d) :=
  (pay5_apply (iblk m c 0 t) r d).trans (congrArg (lit 0xC0000000#32 * ·) (iblk0_apply m c t (0 : Fin 1) r d))

theorem tile_ysq (u : Fin 1) (k : Fin 512) :
    k0_pay7 (iblk m c 1 t) (ix2 u k) = sq (YA m c) (bOf t.val t.isLt) (colOf t.val k) :=
  (pay7_apply (iblk m c 1 t) u k).trans (Finset.sum_congr rfl fun d _ => by
    rw [iblk1_apply m c t (0 : Fin 1) k d]; rfl)

theorem tile_S (C : Vec Ideal S4096x128 .bf16)
    (hC : ∀ r d, C (ix2 r d) = lit 0xC0000000#32 * XA m c (ix3 (bOf t.val t.isLt) r d)) (r : Fin 4096) (k : Fin 512) :
    k0_pay8 (iblk m c 1 t) C (ix2 r k) = dotNeg2 (XA m c) (YA m c) (bOf t.val t.isLt) r (colOf t.val k) :=
  (pay8_apply (iblk m c 1 t) C r k).trans (Finset.sum_congr rfl fun d _ => by
    rw [hC r d, iblk1_apply m c t (0 : Fin 1) k d]; rfl)

theorem tile_rowmin (C : Vec Ideal S4096x128 .bf16)
    (hC : ∀ r d, C (ix2 r d) = lit 0xC0000000#32 * XA m c (ix3 (bOf t.val t.isLt) r d)) (r : Fin 4096) (u : Fin 1) :
    k0_pay10 (iblk m c 1 t) C (ix2 r u) = tileMin (XA m c) (YA m c) (bOf t.val t.isLt) r (t.val % 8) := by
  refine (pay10_apply (iblk m c 1 t) C r u).trans ?_
  unfold tileMin
  rw [dif_pos (Nat.mod_lt _ (by decide))]
  refine congrArg (lit 0x7F800000#32 ⊓ ·) (Finset.inf_congr rfl fun k _ => ?_)
  rw [tile_S m c t C hC r k, tile_ysq m c t (0 : Fin 1) k]
  rfl

theorem tile_col (C : Vec Ideal S4096x128 .bf16) (N : Vec Ideal S4096x1 .f32)
    (hC : ∀ r d, C (ix2 r d) = lit 0xC0000000#32 * XA m c (ix3 (bOf t.val t.isLt) r d))
    (hN : ∀ r u, N (ix2 r u) = sq (XA m c) (bOf t.val t.isLt) r) (u0 u1 : Fin 1) (k : Fin 512) :
    k0_pay9 (iblk m c 1 t) C N (ix3 u0 u1 k) = colKer (XA m c) (YA m c) (bOf t.val t.isLt) (colOf t.val k) := by
  refine (pay9_apply (iblk m c 1 t) C N u0 u1 k).trans ?_
  unfold colKer
  refine congrArg clip ?_
  rw [tile_ysq m c t u1 k, lit_inf, top_inf_eq]
  refine congrArg (sq (YA m c) (bOf t.val t.isLt) (colOf t.val k) + ·) (Finset.inf_congr rfl fun r _ => ?_)
  rw [tile_S m c t C hC r k, hN r (0 : Fin 1)]

/-- After the eighth tile the running minimum is the minimum over all 4096 columns. -/
theorem runMin_all (X Y : Arr) (b : Fin 4) (r : Fin 4096) :
    runMin (tileMin X Y b r) 7 = (Finset.univ : Finset (Fin 4096)).inf fun j => dotNeg2 X Y b r j + sq Y b j := by
  rw [runMin_eq_inf_univ (n := 7)
    (fun jj : Fin 8 => (Finset.univ : Finset (Fin 512)).inf fun k : Fin 512 =>
      (fun j : Fin 4096 => dotNeg2 X Y b r j + sq Y b j) (finProdFinEquiv (jj, k)))
    (tileMin X Y b r) (fun jj => by
      unfold tileMin
      rw [dif_pos jj.isLt, lit_inf, top_inf_eq]
      refine Finset.inf_congr rfl fun k _ => ?_
      have e : (⟨k.val + 512 * jj.val, by have := k.isLt; have := jj.isLt; omega⟩ : Fin 4096) = finProdFinEquiv (jj, k) := Fin.ext rfl
      rw [e])]
  exact (inf_fin_mul (m := 8) (n := 512) (fun j : Fin 4096 => dotNeg2 X Y b r j + sq Y b j)).symm

end tiles

/-! ## The invariant -/

section invariant
variable (m : (ℓ : Loc nD τ sig) → Buf (Elt Ideal) ℓ) (c : Dev nD)

/-- What the state after the point at position `n` holds. -/
structure Inv (n : ℕ) (h : n < cfg0.N) : Prop where
  norm : ∀ (r : Fin 4096) (u : Fin 1), (outsAt m c n h).2.2.1 (ix2 r u) = sq (XA m c) (bOf n h) r
  copy : ∀ (r : Fin 4096) (d : Fin 128), (outsAt m c n h).2.2.2.1 (ix2 r d) = lit 0xC0000000#32 * XA m c (ix3 (bOf n h) r d)
  acc : ∀ (r : Fin 4096) (u : Fin 1), (outsAt m c n h).2.2.2.2 (ix2 r u) = runMin (tileMin (XA m c) (YA m c) (bOf n h) r) (n % 8)
  col : ∀ (u0 u1 : Fin 1) (k : Fin 512), (outsAt m c n h).2.1 (ix3 u0 u1 k) = colKer (XA m c) (YA m c) (bOf n h) (colOf n k)
  row : n % 8 = 7 → ∀ (u0 u1 : Fin 1) (r : Fin 4096), (outsAt m c n h).1 (ix3 u0 u1 r) = rowKer (XA m c) (YA m c) (bOf n h) r

/-- A first tile establishes it from nothing. -/
theorem inv_first (t : Fin cfg0.N) (h0 : t.val % 8 = 0) : Inv m c t.val t.isLt := by
  have e : outsAt m c t.val t.isLt = stFirst m c t h0 := outsAt_first m c t h0
  refine ⟨fun r u => ?_, fun r d => ?_, fun r u => ?_, fun u0 u1 k => ?_, fun h7 => by omega⟩
  · rw [e, stFirst_N]; exact tile_norm m c t r u
  · rw [e, stFirst_X]; exact tile_copy m c t r d
  · rw [e, stFirst_A, pay11_eq, h0]
    exact tile_rowmin m c t _ (tile_copy m c t) r u |>.trans (by rw [h0]; rfl)
  · rw [e, stFirst_3]
    exact tile_col m c t _ _ (tile_copy m c t) (tile_norm m c t) u0 u1 k

/-- A later tile carries it one tile further within the batch. -/
theorem inv_later (n : ℕ) (h : n + 1 < cfg0.N) (h0 : ¬(n + 1) % 8 = 0) (ih : Inv m c n (Nat.lt_of_succ_lt h)) : Inv m c (n + 1) h := by
  have hN := n_lt (n + 1) h
  have eb : bOf (n + 1) h = bOf n (Nat.lt_of_succ_lt h) := Fin.ext (by show (n + 1) / 8 = n / 8; omega)
  have ej : (n + 1) % 8 = n % 8 + 1 := by omega
  have hC : ∀ r d, (outsAt m c n (Nat.lt_of_succ_lt h)).2.2.2.1 (ix2 r d) = lit 0xC0000000#32 * XA m c (ix3 (bOf (n + 1) h) r d) := fun r d => by rw [eb]; exact ih.copy r d
  have hNm : ∀ r u, (outsAt m c n (Nat.lt_of_succ_lt h)).2.2.1 (ix2 r u) = sq (XA m c) (bOf (n + 1) h) r := fun r u => by rw [eb]; exact ih.norm r u
  have hA : ∀ (r : Fin 4096) (u : Fin 1),
      k0_pay1 (k0_pay10 (iblk m c 1 ⟨n + 1, h⟩) (outsAt m c n (Nat.lt_of_succ_lt h)).2.2.2.1) (outsAt m c n (Nat.lt_of_succ_lt h)).2.2.2.2 (ix2 r u)
        = runMin (tileMin (XA m c) (YA m c) (bOf (n + 1) h) r) ((n + 1) % 8) := fun r u => by
    rw [pay1_apply, tile_rowmin m c ⟨n + 1, h⟩ _ hC r u, ih.acc r u, ej, eb]
    rfl
  by_cases h7 : (n + 1) % 8 = 7
  · have e : outsAt m c (n + 1) h = stLast m c ⟨n + 1, h⟩ h0 h7 (outsAt m c n (Nat.lt_of_succ_lt h)) := outsAt_last m c ⟨n + 1, h⟩ h0 h7
    refine ⟨fun r u => ?_, fun r d => ?_, fun r u => ?_, fun u0 u1 k => ?_, fun _ u0 u1 r => ?_⟩
    · rw [e, stLast_N]; exact hNm r u
    · rw [e, stLast_X]; exact hC r d
    · rw [e, stLast_A]; exact hA r u
    · rw [e, stLast_3]; exact tile_col m c ⟨n + 1, h⟩ _ _ hC hNm u0 u1 k
    · rw [e, stLast_2, pay2_apply, hNm r u1, hA r u1, h7]
      unfold rowKer
      rw [runMin_all]
  · have e : outsAt m c (n + 1) h = stMiddle m c ⟨n + 1, h⟩ h0 h7 (outsAt m c n (Nat.lt_of_succ_lt h)) := outsAt_middle m c ⟨n + 1, h⟩ h0 h7
    refine ⟨fun r u => ?_, fun r d => ?_, fun r u => ?_, fun u0 u1 k => ?_, fun h7' => absurd h7' h7⟩
    · rw [e, stMiddle_N]; exact hNm r u
    · rw [e, stMiddle_X]; exact hC r d
    · rw [e, stMiddle_A]; exact hA r u
    · rw [e, stMiddle_3]; exact tile_col m c ⟨n + 1, h⟩ _ _ hC hNm u0 u1 k

/-- The invariant holds after every point. -/
theorem inv_all : ∀ (n : ℕ) (h : n < cfg0.N), Inv m c n h
  | 0, h => inv_first m c ⟨0, h⟩ (Nat.zero_mod _)
  | n + 1, h => by
    by_cases h0 : (n + 1) % 8 = 0
    · exact inv_first m c ⟨n + 1, h⟩ h0
    · exact inv_later m c n h h0 (inv_all n (Nat.lt_of_succ_lt h))

end invariant

end Cert.KernelIdeal.StateVal

end
-- ==== Proof.IdealValue.Arrays.lean ====
/-
  From blocks to arrays, then the lines after the region: if after each point the two result buffers hold the kernel's row
  results (on a batch's last tile) and column results (on every tile), the two result arrays end at the row and column results of
  the two argument arrays, and the program's last value is the loss in the kernel's arrangement.
-/
import proofs.«154106_j14001593385464_2_alg».proof.Proof.IdealBody.Frame
import proofs.«154106_j14001593385464_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Arrays

open Cert.KernelIdeal Cert.KernelIdeal.Gen Cert.KernelIdeal.Body Cert.Chamfer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two result arrays as functions of the arguments -/

/-- The row-result array [4, 1, 4096]: entry (b, 0, i) is the row result of batch b, row i. -/
def rowArr (X Y : Arr) : FVec Ideal S4x1x4096 .f32 := fun i => rowKer X Y (i 0) (i 2)
/-- The column-result array [4, 1, 4096]: entry (b, 0, j) is the column result of batch b, column j. -/
def colArr (X Y : Arr) : FVec Ideal S4x1x4096 .f32 := fun i => colKer X Y (i 0) (i 2)

/-- Point t = 8·b + j works on batch b = t / 8 … -/
abbrev batchOf (t : Fin cfg0.N) : Fin 4 := ⟨t.val / 8, by have := t.isLt; have hN : cfg0.N = 32 := N_0; omega⟩
/-- … and its column tile j = t % 8 holds the columns 512·j … 512·j + 511. -/
abbrev colOf (t : Fin cfg0.N) (k : Fin 512) : Fin 4096 := ⟨k.val + 512 * (t.val % 8), by have := k.isLt; omega⟩

/-- The row-result window's block index at point t is (t / 8, 0, 0). -/
theorem idx_facts_2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
/-- The column-result window's block index at point t is (t / 8, 0, t % 8). -/
theorem idx_facts_3 : ∀ t : Fin cfg0.N, win0_3.index t (0 : Fin 3) = t.val / 8 ∧ win0_3.index t (1 : Fin 3) = 0 ∧ win0_3.index t (2 : Fin 3) = t.val % 8 :=
  (by decide +kernel : ∀ t : Fin grid0.N, _)

/-- What the last tile of a batch writes back to the row-result array is its block of rowArr. -/
theorem flushed_row (c : Dev nD) (X Y : Arr)
    (H : ∀ (t : Fin cfg0.N) (h7 : t.val % 8 = 7) (u0 u1 : Fin 1) (r : Fin 4096),
      (outsAt (F := Ideal) m c t.val t.isLt).1 (ix3 u0 u1 r) = rowKer X Y (batchOf t) r)
    (t : Fin cfg0.N) (hf : (cfg0.win 2).flush t = true) :
    (dats (F := Ideal) m 0 c).flushed 2 t = ((cfg0.win 2).blk t).view.read (Elt Ideal) (rowArr X Y) := by
  have h7 : t.val % 8 = 7 := (flush0_2 t).mp hf
  show (cfg0.win 2).cut (grid0.coords t) ((dats (F := Ideal) m 0 c).after 2 t) = _
  rw [after_2]
  obtain ⟨e0, e1, e2⟩ := idx_facts_2 t
  funext y
  obtain ⟨u0, u1, r, rfl⟩ : ∃ (u0 u1 : Fin 1) (r : Fin 4096), y = (ix3 u0 u1 r : S1x1x4096.Idx) :=
    ⟨y 0, y 1, y 2, eq_ix3 (n0 := 1) (n1 := 1) (n2 := 4096) y⟩
  rw [View.read_apply]
  show (outsAt (F := Ideal) m c t.val t.isLt).1 (ix3 u0 u1 r)
    = rowKer X Y ((((cfg0.win 2).blk t).view.emb (ix3 u0 u1 r : S1x1x4096.Idx)) 0) ((((cfg0.win 2).blk t).view.emb (ix3 u0 u1 r : S1x1x4096.Idx)) 2)
  rw [H t h7 u0 u1 r]
  congr 1
  · exact Fin.ext (by show t.val / 8 = win0_2.index t (0 : Fin 3) * 1 + 1 * (u0 : ℕ); have := u0.isLt; omega)
  · exact Fin.ext (by show r.val = win0_2.index t (2 : Fin 3) * 4096 + 1 * (r : ℕ); omega)

/-- An index of the row-result array is in point t's block iff each coordinate is in the block's range on its axis. -/
theorem mem_blk_2 (t : Fin cfg0.N) (i : S4x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v0_0).slice (win0_2.rect t)).set ↔ _
  rw [View.set_slice_whole, Rect.mem_set_unit]
  exact Iff.rfl

/-- Every index (b, 0, i) of the row-result array is in the block written back at the last tile of batch b, point 8·b + 7. -/
theorem cover_row (i : S4x1x4096.Idx) : ∃ t : Fin cfg0.N, (cfg0.win 2).flush t = true ∧ i ∈ ((cfg0.win 2).blk t).view.set := by
  have hN : cfg0.N = 32 := N_0
  have hi0 : (i 0).val < 4 := (i 0).isLt
  have hi1 : (i 1).val < 1 := (i 1).isLt
  have hi2 : (i 2).val < 4096 := (i 2).isLt
  have ht : (⟨8 * (i 0).val + 7, by omega⟩ : Fin cfg0.N).val = 8 * (i 0).val + 7 := rfl
  generalize (⟨8 * (i 0).val + 7, by omega⟩ : Fin cfg0.N) = t at ht
  refine ⟨t, (flush0_2 t).mpr (by omega), ?_⟩
  rw [mem_blk_2]
  obtain ⟨e0, e1, e2⟩ := idx_facts_2 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 4096 ≤ (i 2).val ∧ (i 2).val < win0_2.index t (2 : Fin 3) * 4096 + 4096; omega

/-- If at every last tile the row-result buffer holds the batch's row results, the row-result array ends at rowArr. -/
theorem final_row (c : Dev nD) (X Y : Arr)
    (H : ∀ (t : Fin cfg0.N) (h7 : t.val % 8 = 7) (u0 u1 : Fin 1) (r : Fin 4096),
      (outsAt (F := Ideal) m c t.val t.isLt).1 (ix3 u0 u1 r) = rowKer X Y (batchOf t) r) :
    (dats (F := Ideal) m 0 c).arrAt 2 cfg0.N = rowArr X Y :=
  (dats (F := Ideal) m 0 c).arrAt_eq_of_cover 2 (rowArr X Y) (flushed_row m c X Y H) cover_row

/-- What a point writes back to the column-result array is its block of colArr. -/
theorem flushed_col (c : Dev nD) (X Y : Arr)
    (H : ∀ (t : Fin cfg0.N) (u0 u1 : Fin 1) (k : Fin 512),
      (outsAt (F := Ideal) m c t.val t.isLt).2.1 (ix3 u0 u1 k) = colKer X Y (batchOf t) (colOf t k))
    (t : Fin cfg0.N) (hf : (cfg0.win 3).flush t = true) :
    (dats (F := Ideal) m 0 c).flushed 3 t = ((cfg0.win 3).blk t).view.read (Elt Ideal) (colArr X Y) := by
  show (cfg0.win 3).cut (grid0.coords t) ((dats (F := Ideal) m 0 c).after 3 t) = _
  rw [after_3]
  obtain ⟨e0, e1, e2⟩ := idx_facts_3 t
  funext y
  obtain ⟨u0, u1, k, rfl⟩ : ∃ (u0 u1 : Fin 1) (k : Fin 512), y = (ix3 u0 u1 k : S1x1x512.Idx) :=
    ⟨y 0, y 1, y 2, eq_ix3 (n0 := 1) (n1 := 1) (n2 := 512) y⟩
  rw [View.read_apply]
  show (outsAt (F := Ideal) m c t.val t.isLt).2.1 (ix3 u0 u1 k)
    = colKer X Y ((((cfg0.win 3).blk t).view.emb (ix3 u0 u1 k : S1x1x512.Idx)) 0) ((((cfg0.win 3).blk t).view.emb (ix3 u0 u1 k : S1x1x512.Idx)) 2)
  rw [H t u0 u1 k]
  congr 1
  · exact Fin.ext (by show t.val / 8 = win0_3.index t (0 : Fin 3) * 1 + 1 * (u0 : ℕ); have := u0.isLt; omega)
  · exact Fin.ext (by show k.val + 512 * (t.val % 8) = win0_3.index t (2 : Fin 3) * 512 + 1 * (k : ℕ); omega)

/-- An index of the column-result array is in point t's block iff each coordinate is in the block's range on its axis. -/
theorem mem_blk_3 (t : Fin cfg0.N) (i : S4x1x4096.Idx) :
    i ∈ ((cfg0.win 3).blk t).view.set ↔ ∀ a : Fin 3, win0_3.index t a * S1x1x512.size a ≤ (i a).val ∧ (i a).val < win0_3.index t a * S1x1x512.size a + S1x1x512.size a := by
  show i ∈ ((View.whole main_v0_1).slice (win0_3.rect t)).set ↔ _
  rw [View.set_slice_whole, Rect.mem_set_unit]
  exact Iff.rfl

/-- Every index (b, 0, q) of the column-result array is in the block written back at point 8·b + q / 512. -/
theorem cover_col (i : S4x1x4096.Idx) : ∃ t : Fin cfg0.N, (cfg0.win 3).flush t = true ∧ i ∈ ((cfg0.win 3).blk t).view.set := by
  have hN : cfg0.N = 32 := N_0
  have hi0 : (i 0).val < 4 := (i 0).isLt
  have hi1 : (i 1).val < 1 := (i 1).isLt
  have hi2 : (i 2).val < 4096 := (i 2).isLt
  have ht : (⟨8 * (i 0).val + (i 2).val / 512, by omega⟩ : Fin cfg0.N).val = 8 * (i 0).val + (i 2).val / 512 := rfl
  generalize (⟨8 * (i 0).val + (i 2).val / 512, by omega⟩ : Fin cfg0.N) = t at ht
  refine ⟨t, flush0_3 t, ?_⟩
  rw [mem_blk_3]
  obtain ⟨e0, e1, e2⟩ := idx_facts_3 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 512 ≤ (i 2).val ∧ (i 2).val < win0_3.index t (2 : Fin 3) * 512 + 512; omega

/-- If at every point the column-result buffer holds its tile's column results, the column-result array ends at colArr. -/
theorem final_col (c : Dev nD) (X Y : Arr)
    (H : ∀ (t : Fin cfg0.N) (u0 u1 : Fin 1) (k : Fin 512),
      (outsAt (F := Ideal) m c t.val t.isLt).2.1 (ix3 u0 u1 k) = colKer X Y (batchOf t) (colOf t k)) :
    (dats (F := Ideal) m 0 c).arrAt 3 cfg0.N = colArr X Y :=
  (dats (F := Ideal) m 0 c).arrAt_eq_of_cover 3 (colArr X Y) (flushed_col m c X Y H) cover_col

/-! ## The lines after the region -/

/-- An index of [4, 1, 4096] is its batch and its last coordinate: the middle coordinate is 0. -/
def idxEquiv : S4x1x4096.Idx ≃ Fin 4 × Fin 4096 where
  toFun i := (i 0, i 2)
  invFun p := ix3 p.1 (0 : Fin 1) p.2
  left_inv i := by
    funext a
    match a with
    | ⟨0, _⟩ => rfl
    | ⟨1, _⟩ => exact Subsingleton.elim (α := Fin 1) _ _
    | ⟨2, _⟩ => rfl
  right_inv _ := rfl

/-- So a sum over [4, 1, 4096] is the double sum over the batch and the last coordinate. -/
theorem sum_idx (f : S4x1x4096.Idx → EReal) : ∑ i, f i = ∑ b : Fin 4, ∑ r : Fin 4096, f (ix3 b (0 : Fin 1) r) := by
  rw [← Equiv.sum_comp idxEquiv.symm f, Fintype.sum_prod_type]
  rfl

/-- The sum of the row-result array over all three axes, from zero, is the double sum of the row results. -/
theorem rowSum (X Y : Arr) (i : S_.Idx) :
    Host.reduceAdd (F := Ideal) (rowArr X Y) (constant (F := Ideal) S_ .f32 0x00000000#32) reducesTo_S4x1x4096_S_d0_1_2 h_S_ i
      = ∑ b : Fin 4, ∑ r : Fin 4096, rowKer X Y b r := by
  simp only [Host.reduceAdd, Ideal.hostReduceAdd_def]
  refine (Ideal.hostReduceAdd_total reducesTo_S4x1x4096_S_d0_1_2 (fun b => b.elim0) _ _ i).trans ?_
  refine (congrArg (· + _) Ideal.ofBits_zero_f32).trans ((zero_add _).trans ?_)
  exact sum_idx _

/-- The sum of the column-result array over all three axes, from zero, is the double sum of the column results. -/
theorem colSum (X Y : Arr) (i : S_.Idx) :
    Host.reduceAdd (F := Ideal) (colArr X Y) (constant (F := Ideal) S_ .f32 0x00000000#32) reducesTo_S4x1x4096_S_d0_1_2 h_S_ i
      = ∑ b : Fin 4, ∑ q : Fin 4096, colKer X Y b q := by
  simp only [Host.reduceAdd, Ideal.hostReduceAdd_def]
  refine (Ideal.hostReduceAdd_total reducesTo_S4x1x4096_S_d0_1_2 (fun b => b.elim0) _ _ i).trans ?_
  refine (congrArg (· + _) Ideal.ofBits_zero_f32).trans ((zero_add _).trans ?_)
  exact sum_idx _

/-- The lines after the region: the two sums over all axes from 0.0, each over 16384.0, added, times 1.0, over 4.0. -/
theorem tail_value (c : Dev nD) (X Y : Arr) (h2 : (dats (F := Ideal) m 0 c).arrAt 2 cfg0.N = rowArr X Y)
    (h3 : (dats (F := Ideal) m 0 c).arrAt 3 cfg0.N = colArr X Y) :
    Pipeline.afterTail₀ cfgs (dats (F := Ideal) m) 0 (V0 m) [hostOps1] c main_v7 = fun _ => kerLoss X Y := by
  unfold Pipeline.afterTail₀
  show StableHlo.after hostOps1 _ (Proc.devRef .tc main_v7) = _
  after_results
  rw [show Pipeline.withArrays (cfgs 0).spec c (V0 m c) (fun w => (dats (F := Ideal) m 0 c).arrAt w (cfgs 0).N) (Proc.devRef .tc main_v0_0) = rowArr X Y from
      (Pipeline.withArrays_arr spec0 launch0.win.arr_inj c _ _ 2).trans h2,
    show Pipeline.withArrays (cfgs 0).spec c (V0 m c) (fun w => (dats (F := Ideal) m 0 c).arrAt w (cfgs 0).N) (Proc.devRef .tc main_v0_1) = colArr X Y from
      (Pipeline.withArrays_arr spec0 launch0.win.arr_inj c _ _ 3).trans h3]
  funext i
  show Ideal.div (lit 0x3F800000#32 * (Ideal.div (Host.reduceAdd (F := Ideal) (rowArr X Y) (constant (F := Ideal) S_ .f32 0x00000000#32) reducesTo_S4x1x4096_S_d0_1_2 h_S_ i) (lit 0x46800000#32)
    + Ideal.div (Host.reduceAdd (F := Ideal) (colArr X Y) (constant (F := Ideal) S_ .f32 0x00000000#32) reducesTo_S4x1x4096_S_d0_1_2 h_S_ i) (lit 0x46800000#32))) (lit 0x40800000#32) = kerLoss X Y
  rw [rowSum, colSum]
  rfl

/-! ## The run, read -/

/-- Given the two per-point facts at every core, for the launch contents of the two arguments: every weakly fair execution
    ends with the result at the loss in the kernel's arrangement, the arguments unchanged. -/
theorem ker_run
    (Hrow : ∀ (c : Dev nD) (t : Fin cfg0.N) (h7 : t.val % 8 = 7) (u0 u1 : Fin 1) (r : Fin 4096),
      (outsAt (F := Ideal) m c t.val t.isLt).1 (ix3 u0 u1 r)
        = rowKer (m ((c.tc : Thread nD τ).loc main_arg0)) (m ((c.tc : Thread nD τ).loc main_arg1)) (batchOf t) r)
    (Hcol : ∀ (c : Dev nD) (t : Fin cfg0.N) (u0 u1 : Fin 1) (k : Fin 512),
      (outsAt (F := Ideal) m c t.val t.isLt).2.1 (ix3 u0 u1 k)
        = colKer (m ((c.tc : Thread nD τ).loc main_arg0)) (m ((c.tc : Thread nD τ).loc main_arg1)) (batchOf t) (colOf t k)) :
    θ_run (defs (F := Ideal)) (onTc (τ := τ) (main (F := Ideal))) ⟨m, fun _ => 0, ρ⟩ fun r => ∀ c : Dev nD,
      r.2.mem ((c.tc : Thread nD τ).loc main_v7) = (fun _ => kerLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 rfl (by decide))).trans
        (tail_value m c _ _ (final_row m c _ _ (Hrow c)) (final_col m c _ _ (Hcol c))),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c)))⟩)
    (run_main m ρ)

end Cert.KernelIdeal.Arrays

end
-- ==== Proof.RefSide.lean ====
/-
  The reference's side of the bridge: its result, read one operation at a time, is the loss in the reference's arrangement.
-/
import proofs.«154106_j14001593385464_2_alg».proof.Proof.Gen.ReferenceIdeal.Read
import proofs.«154106_j14001593385464_2_alg».proof.Proof.Spec
import proofs.«154106_j14001593385464_2_alg».proof.Proof.LibMinMaxInf
import Idealize.ShloMosaic.Lib.ValueIdx
import Idealize.ShloMosaic.PureOps.Ideal.Laws

noncomputable section

open scoped BigOperators

namespace Cert.Chamfer.Ref

open Cert.ReferenceIdeal Cert.ReferenceIdeal.Gen Cert.ReferenceIdeal.Read Idealize.ShloMosaic Idealize.ShloMosaic.ValueIdx

/-! ## The indices the stages read at, by coordinates -/

/-- Row (b, i) of an argument with the coordinate k of the summed axis put back is entry (b, i, k). -/
theorem idx_v1_ix (b : Fin 4) (i : Fin 4096) (k : Fin 128) : idx_main_v1 (ix2 b i) k = ix3 b i k :=
  funext fun a => Fin.ext (by match a with | ⟨0, _⟩ => rfl | ⟨1, _⟩ => rfl | ⟨2, _⟩ => rfl)
theorem idx_v3_ix (b : Fin 4) (j : Fin 4096) (k : Fin 128) : idx_main_v3 (ix2 b j) k = ix3 b j k :=
  funext fun a => Fin.ext (by match a with | ⟨0, _⟩ => rfl | ⟨1, _⟩ => rfl | ⟨2, _⟩ => rfl)
/-- The product's entry (b, i, j) contracts row (b, i) of the left operand … -/
theorem lidx_v4_ix (b : Fin 4) (i j : Fin 4096) (k : Fin 128) : lidx_main_v4 (ix3 b i j) k = ix3 b i k :=
  funext fun a => Fin.ext (by match a with | ⟨0, _⟩ => rfl | ⟨1, _⟩ => rfl | ⟨2, _⟩ => rfl)
/-- … with row (b, j) of the right one. -/
theorem ridx_v4_ix (b : Fin 4) (i j : Fin 4096) (k : Fin 128) : ridx_main_v4 (ix3 b i j) k = ix3 b j k :=
  funext fun a => Fin.ext (by match a with | ⟨0, _⟩ => rfl | ⟨1, _⟩ => rfl | ⟨2, _⟩ => rfl)
/-- The squared norms of X's rows, spread along the last axis: entry (b, i, j) reads row (b, i). -/
theorem idx_v7_v5_ix (b : Fin 4) (i j : Fin 4096) : idx_main_v5 (idx_main_v7 (ix3 b i j)) = ix2 b i :=
  funext fun a => Fin.ext (by match a with | ⟨0, _⟩ => rfl | ⟨1, _⟩ => rfl)
/-- The squared norms of Y's rows, spread along the middle axis: entry (b, i, j) reads row (b, j). -/
theorem idx_v8_v6_ix (b : Fin 4) (i j : Fin 4096) : idx_main_v6 (idx_main_v8 (ix3 b i j)) = ix2 b j :=
  funext fun a => Fin.ext (by match a with | ⟨0, _⟩ => rfl | ⟨1, _⟩ => rfl)

/-! ## The three sums over the feature axis -/

/-- The first sum of squares at (b, i) is ‖x_i‖²: the zero initial value drops. -/
theorem sqX_apply (x : FVec Ideal S4x4096x128 .f32) (b : Fin 4) (i : Fin 4096) :
    val_main_v1 (F := Ideal) x (ix2 b i) = sq x b i := by
  rw [val_main_v1_apply, val_main_cst_apply]
  refine (congrArg (· + _) Ideal.ofBits_zero_f32).trans ((zero_add _).trans ?_)
  refine Finset.sum_congr rfl fun k _ => ?_
  rw [idx_v1_ix]; rfl

/-- The second sum of squares at (b, j) is ‖y_j‖². -/
theorem sqY_apply (y : FVec Ideal S4x4096x128 .f32) (b : Fin 4) (j : Fin 4096) :
    val_main_v3 (F := Ideal) y (ix2 b j) = sq y b j := by
  rw [val_main_v3_apply, val_main_cst_0_apply]
  refine (congrArg (· + _) Ideal.ofBits_zero_f32).trans ((zero_add _).trans ?_)
  refine Finset.sum_congr rfl fun k _ => ?_
  rw [idx_v3_ix]; rfl

/-- The batched product at (b, i, j) is x_i · y_j. -/
theorem dot_apply (x y : FVec Ideal S4x4096x128 .f32) (b : Fin 4) (i j : Fin 4096) :
    val_main_v4 (F := Ideal) x y (ix3 b i j) = dot x y b i j := by
  rw [val_main_v4_apply]
  refine Finset.sum_congr rfl fun k _ => ?_
  rw [lidx_v4_ix, ridx_v4_ix]

/-! ## The clipped matrix -/

/-- The matrix the two minima are taken of, at (b, i, j): the broadcasts read their one source entry, the three literals
    stay as their words. -/
theorem P_apply (x y : FVec Ideal S4x4096x128 .f32) (b : Fin 4) (i j : Fin 4096) :
    val_main_v13 (F := Ideal) x y (ix3 b i j) = P x y b i j := by
  rw [val_main_v13_apply, val_main_call0_v4_apply, val_main_call0_v3_apply, val_main_cst_3_apply,
    val_main_call0_v2_apply, val_main_call0_v1_apply, val_main_call0_v0_apply, val_main_cst_2_apply,
    val_main_v12_apply, val_main_v9_apply, val_main_v7_apply, val_main_v5_apply, val_main_v8_apply, val_main_v6_apply,
    val_main_v11_apply, val_main_v10_apply, val_main_cst_1_apply, idx_v7_v5_ix, idx_v8_v6_ix, sqX_apply, sqY_apply, dot_apply]
  rfl

/-! ## The two families of minima -/

/-- The middle axis of [4, 4096, 4096] can be reduced away … -/
theorem reduces_d1 : S4x4096x4096.Reduces [1] S4x4096 := by decide
/-- … and so can the last. -/
theorem reduces_d2 : S4x4096x4096.Reduces [2] S4x4096 := by decide

/-- (b, j) with the coordinate i put back on the middle axis is (b, i, j). -/
theorem lift_d1_ix (b : Fin 4) (j i : Fin 4096) : reduces_d1.lift (ix2 b j) i = ix3 b i j :=
  funext fun a => Fin.ext (by match a with | ⟨0, _⟩ => rfl | ⟨1, _⟩ => rfl | ⟨2, _⟩ => rfl)
/-- (b, i) with the coordinate j put back on the last axis is (b, i, j). -/
theorem lift_d2_ix (b : Fin 4) (i j : Fin 4096) : reduces_d2.lift (ix2 b i) j = ix3 b i j :=
  funext fun a => Fin.ext (by match a with | ⟨0, _⟩ => rfl | ⟨1, _⟩ => rfl | ⟨2, _⟩ => rfl)

/-- The minimum over the middle axis at (b, j) is the column minimum: its initial value +∞ is the top element and drops. -/
theorem col_apply (x y : FVec Ideal S4x4096x128 .f32) (b : Fin 4) (j : Fin 4096) :
    val_main_v14 (F := Ideal) x y (ix2 b j) = colRef x y b j := by
  unfold val_main_v14
  refine (Cert.Lib.MinMaxInf.hostReduce_minimumf_single _ _ reducesTo_S4x4096x4096_S4x4096_d1 reduces_d1 h_S_ _).trans ?_
  rw [val_main_cst_4_apply]
  refine (congrArg (· ⊓ _) Cert.Lib.MinMaxInf.ofBits_posInf_f32).trans ((top_inf_eq _).trans ?_)
  refine Finset.inf_congr rfl fun i _ => ?_
  exact (congrArg (val_main_v13 (F := Ideal) x y) (lift_d1_ix b j i)).trans (P_apply x y b i j)

/-- The minimum over the last axis at (b, i) is the row minimum. -/
theorem row_apply (x y : FVec Ideal S4x4096x128 .f32) (b : Fin 4) (i : Fin 4096) :
    val_main_v17 (F := Ideal) x y (ix2 b i) = rowRef x y b i := by
  unfold val_main_v17
  refine (Cert.Lib.MinMaxInf.hostReduce_minimumf_single _ _ reducesTo_S4x4096x4096_S4x4096_d2 reduces_d2 h_S_ _).trans ?_
  rw [val_main_cst_7_apply]
  refine (congrArg (· ⊓ _) Cert.Lib.MinMaxInf.ofBits_posInf_f32).trans ((top_inf_eq _).trans ?_)
  refine Finset.inf_congr rfl fun j _ => ?_
  exact (congrArg (val_main_v13 (F := Ideal) x y) (lift_d2_ix b i j)).trans (P_apply x y b i j)

/-! ## The two sums over [4, 4096], the means and the tail -/

/-- The sum of the column minima over both axes, from zero, is the double sum over the batch and the column. -/
theorem colSum_apply (x y : FVec Ideal S4x4096x128 .f32) (i : S_.Idx) :
    val_main_v15 (F := Ideal) x y i = ∑ b : Fin 4, ∑ j : Fin 4096, colRef x y b j := by
  rw [val_main_v15_apply, val_main_cst_5_apply]
  refine (congrArg (· + _) Ideal.ofBits_zero_f32).trans ((zero_add _).trans ?_)
  refine (sum_idx2 (n0 := 4) (n1 := 4096) _).trans ?_
  exact Finset.sum_congr rfl fun b _ => Finset.sum_congr rfl fun j _ => col_apply x y b j

/-- The sum of the row minima over both axes, from zero, is the double sum over the batch and the row. -/
theorem rowSum_apply (x y : FVec Ideal S4x4096x128 .f32) (i : S_.Idx) :
    val_main_v18 (F := Ideal) x y i = ∑ b : Fin 4, ∑ r : Fin 4096, rowRef x y b r := by
  rw [val_main_v18_apply, val_main_cst_8_apply]
  refine (congrArg (· + _) Ideal.ofBits_zero_f32).trans ((zero_add _).trans ?_)
  refine (sum_idx2 (n0 := 4) (n1 := 4096) _).trans ?_
  exact Finset.sum_congr rfl fun b _ => Finset.sum_congr rfl fun r _ => row_apply x y b r

/-- The last stage is the loss: each sum over 16384.0, the two means added, times 1.0, over 4.0. -/
theorem ref_stage (x y : FVec Ideal S4x4096x128 .f32) :
    val_main_v22 (F := Ideal) x y = fun _ => refLoss x y := by
  funext i
  rw [val_main_v22_apply, val_main_v21_apply, val_main_cst_10_apply, val_main_v20_apply, val_main_v16_apply, val_main_v19_apply,
    colSum_apply, rowSum_apply, val_main_cst_6_apply, val_main_cst_9_apply, val_main_cst_11_apply]
  rfl

/-! ## The run -/

open Idealize.ShloMosaic.TcCoe Idealize.SL.Sem Idealize.ShloMosaic.StableHlo

/-- The reference's last stage, as a function of its two argument arrays, is the loss in the reference's arrangement. -/
theorem ref_value (x y : FVec Ideal Cert.ReferenceIdeal.S4x4096x128 .f32) :
    Host.divf (F := Ideal) (mulf (constant (F := Ideal) S_ .f32 0x3F800000#32) (addf (Host.divf (F := Ideal) (Host.reduceAdd (F := Ideal) (Host.reduce (FloatOps.minimumf (F := Ideal)) (minimumf (broadcastInDim S4x4096x4096 ![] bcast_S_S4x4096x4096 (id (constant (F := Ideal) S_ .f32 0x42C80000#32))) (maximumf (broadcastInDim S4x4096x4096 ![] bcast_S_S4x4096x4096 (id (constant (F := Ideal) S_ .f32 0x00000000#32))) (subf (addf (broadcastInDim S4x4096x4096 ![0, 1, 2] bcast_S4x4096x1_S4x4096x4096_0_1_2 (broadcastInDim S4x4096x1 ![0, 1] bcast_S4x4096_S4x4096x1_0_1 (Host.reduceAdd (F := Ideal) (mulf x x) (constant (F := Ideal) S_ .f32 0x00000000#32) reducesTo_S4x4096x128_S4x4096_d2 h_S_))) (broadcastInDim S4x4096x4096 ![0, 1, 2] bcast_S4x1x4096_S4x4096x4096_0_1_2 (broadcastInDim S4x1x4096 ![0, 2] bcast_S4x4096_S4x1x4096_0_2 (Host.reduceAdd (F := Ideal) (mulf y y) (constant (F := Ideal) S_ .f32 0x00000000#32) reducesTo_S4x4096x128_S4x4096_d2 h_S_)))) (mulf (broadcastInDim S4x4096x4096 ![] bcast_S_S4x4096x4096 (constant (F := Ideal) S_ .f32 0x40000000#32)) (Host.dotGeneral (F := Ideal) dot_S4x4096x128_S4x4096x128_S4x4096x4096_2_2_1_1_0_0 none x y))))) (constant (F := Ideal) S_ .f32 0x7F800000#32) reducesTo_S4x4096x4096_S4x4096_d1 h_S_) (constant (F := Ideal) S_ .f32 0x00000000#32) reducesTo_S4x4096_S_d0_1 h_S_) (constant (F := Ideal) S_ .f32 0x46800000#32)) (Host.divf (F := Ideal) (Host.reduceAdd (F := Ideal) (Host.reduce (FloatOps.minimumf (F := Ideal)) (minimumf (broadcastInDim S4x4096x4096 ![] bcast_S_S4x4096x4096 (id (constant (F := Ideal) S_ .f32 0x42C80000#32))) (maximumf (broadcastInDim S4x4096x4096 ![] bcast_S_S4x4096x4096 (id (constant (F := Ideal) S_ .f32 0x00000000#32))) (subf (addf (broadcastInDim S4x4096x4096 ![0, 1, 2] bcast_S4x4096x1_S4x4096x4096_0_1_2 (broadcastInDim S4x4096x1 ![0, 1] bcast_S4x4096_S4x4096x1_0_1 (Host.reduceAdd (F := Ideal) (mulf x x) (constant (F := Ideal) S_ .f32 0x00000000#32) reducesTo_S4x4096x128_S4x4096_d2 h_S_))) (broadcastInDim S4x4096x4096 ![0, 1, 2] bcast_S4x1x4096_S4x4096x4096_0_1_2 (broadcastInDim S4x1x4096 ![0, 2] bcast_S4x4096_S4x1x4096_0_2 (Host.reduceAdd (F := Ideal) (mulf y y) (constant (F := Ideal) S_ .f32 0x00000000#32) reducesTo_S4x4096x128_S4x4096_d2 h_S_)))) (mulf (broadcastInDim S4x4096x4096 ![] bcast_S_S4x4096x4096 (constant (F := Ideal) S_ .f32 0x40000000#32)) (Host.dotGeneral (F := Ideal) dot_S4x4096x128_S4x4096x128_S4x4096x4096_2_2_1_1_0_0 none x y))))) (constant (F := Ideal) S_ .f32 0x7F800000#32) reducesTo_S4x4096x4096_S4x4096_d2 h_S_) (constant (F := Ideal) S_ .f32 0x00000000#32) reducesTo_S4x4096_S_d0_1 h_S_) (constant (F := Ideal) S_ .f32 0x46800000#32)))) (constant (F := Ideal) S_ .f32 0x40800000#32) = fun _ => Cert.Chamfer.refLoss x y :=
  (val_main_v22_eq (F := Ideal) x y).trans (ref_stage x y)

/-- The reference runs to the end with its result at the loss of its arguments, which it leaves unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread _ _).loc Cert.ReferenceIdeal.main_v22) = (fun _ => Cert.Chamfer.refLoss (m ((c.tc : Thread _ _).loc Cert.ReferenceIdeal.main_arg0)) (m ((c.tc : Thread _ _).loc Cert.ReferenceIdeal.main_arg1)))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1) :=
  (θ_run _ _ _).mono (fun _ h c => ⟨(h c).1.trans (ref_value _ _), (h c).2⟩) (Cert.ReferenceIdeal.Value.run (F := Ideal) m ρ)

end Cert.Chamfer.Ref

end
-- ==== Proof.Bridge.lean ====
/-
  The two arrangements of the bidirectional chamfer loss give the same extended real when every entry of the two argument
  arrays is a real number.

  Three facts carry the proof.
  * A monotone map of a linear order commutes with the minimum of a finite NONEMPTY family (the minimum is attained at some
    index, and the map keeps that index minimal).  Both  v ↦ a + v  and  v ↦ clip v  are monotone on the extended reals, so the
    kernel's  clip(a + min_j f j)  is  min_j clip(a + f j).  (Over an empty family the minimum is ⊤ and the statement fails for
    clip, so nonemptiness is used.)
  * The word C0000000 is −2 and the word 40000000 is 2.  With real entries every norm and every dot product is a real number,
    Σ_d (−2·x_d)·y_d = −(2·Σ_d x_d·y_d), and  a + (s + c) = (a + c) − 2·p = c + (s + a)  is arithmetic in ℝ.
  * The closing tail is symmetric in its two arguments.
-/
import proofs.«154106_j14001593385464_2_alg».proof.Proof.Spec

noncomputable section

open scoped BigOperators

namespace Cert.Chamfer

open Idealize.ShloMosaic Idealize.ShloMosaic.ValueIdx

namespace Bridge

/-! ## Order: a monotone map commutes with a finite nonempty minimum -/

/-- In a linear order with a top, a monotone map commutes with the infimum of a family over a finite nonempty type. -/
theorem monotone_map_univ_inf {ι α β : Type*} [Fintype ι] [Nonempty ι] [LinearOrder α] [OrderTop α] [LinearOrder β]
    [OrderTop β] (g : α → β) (hg : Monotone g) (f : ι → α) :
    g ((Finset.univ : Finset ι).inf f) = (Finset.univ : Finset ι).inf fun j => g (f j) := by
  obtain ⟨i, hi, he⟩ := Finset.exists_mem_eq_inf (Finset.univ : Finset ι) Finset.univ_nonempty f
  apply le_antisymm
  · exact Finset.le_inf fun j hj => hg (Finset.inf_le hj)
  · rw [he]
    exact Finset.inf_le (f := fun j => g (f j)) hi

/-- Adding a fixed extended real on the left is monotone. -/
theorem add_left_monotone (a : EReal) : Monotone fun v : EReal => a + v :=
  fun _ _ h => add_le_add_right h a

/-- The clip is monotone, whatever its two constants are. -/
theorem clip_mono : Monotone clip :=
  fun _ _ h => min_le_min le_rfl (max_le_max le_rfl h)

/-- clip(a + min_j f j) = min_j clip(a + f j) over a finite nonempty index type. -/
theorem clip_add_univ_inf {ι : Type*} [Fintype ι] [Nonempty ι] (a : EReal) (f : ι → EReal) :
    clip (a + (Finset.univ : Finset ι).inf f) = (Finset.univ : Finset ι).inf fun j => clip (a + f j) :=
  monotone_map_univ_inf (fun v => clip (a + v)) (clip_mono.comp (add_left_monotone a)) f

/-! ## The two literals -/

theorem lit_neg_two : lit 0xC0000000#32 = ((-2 : ℝ) : EReal) := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

/-! ## Real entries: norms and dot products are real -/

/-- The coercion ℝ → EReal carries a finite sum to the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries, a + (s + c) = (a + c) − 2·p, where a = ‖x_i‖², c = ‖y_j‖², p = x_i·y_j and s = Σ_d (−2·x_d)·y_d. -/
theorem entry_eq (X Y : Arr) (hX : ∀ k, ∃ r : ℝ, X k = (r : EReal)) (hY : ∀ k, ∃ r : ℝ, Y k = (r : EReal))
    (b : Fin 4) (i j : Fin 4096) :
    sq X b i + (dotNeg2 X Y b i j + sq Y b j) = (sq X b i + sq Y b j) - lit 0x40000000#32 * dot X Y b i j := by
  choose x hx using hX
  choose y hy using hY
  have hA : sq X b i = ((∑ d : Fin 128, x (ix3 b i d) * x (ix3 b i d) : ℝ) : EReal) := by
    rw [coe_finset_sum]; unfold sq
    exact Finset.sum_congr rfl fun d _ => by rw [hx, EReal.coe_mul]
  have hC : sq Y b j = ((∑ d : Fin 128, y (ix3 b j d) * y (ix3 b j d) : ℝ) : EReal) := by
    rw [coe_finset_sum]; unfold sq
    exact Finset.sum_congr rfl fun d _ => by rw [hy, EReal.coe_mul]
  have hP : dot X Y b i j = ((∑ d : Fin 128, x (ix3 b i d) * y (ix3 b j d) : ℝ) : EReal) := by
    rw [coe_finset_sum]; unfold dot
    exact Finset.sum_congr rfl fun d _ => by rw [hx, hy, EReal.coe_mul]
  have hS : dotNeg2 X Y b i j = ((-(2 * ∑ d : Fin 128, x (ix3 b i d) * y (ix3 b j d)) : ℝ) : EReal) := by
    have : (-(2 * ∑ d : Fin 128, x (ix3 b i d) * y (ix3 b j d)) : ℝ)
        = ∑ d : Fin 128, ((-2 : ℝ) * x (ix3 b i d)) * y (ix3 b j d) := by
      rw [Finset.mul_sum, ← Finset.sum_neg_distrib]
      exact Finset.sum_congr rfl fun d _ => by ring
    rw [this, coe_finset_sum]; unfold dotNeg2
    exact Finset.sum_congr rfl fun d _ => by rw [hx, hy, lit_neg_two, EReal.coe_mul, EReal.coe_mul]
  rw [hA, hC, hP, hS, lit_two]
  rw [← EReal.coe_add, ← EReal.coe_add, ← EReal.coe_add, ← EReal.coe_mul, ← EReal.coe_sub]
  congr 1
  ring

/-! ## Rows and columns -/

theorem rowKer_eq_rowRef (X Y : Arr) (hX : ∀ k, ∃ r : ℝ, X k = (r : EReal)) (hY : ∀ k, ∃ r : ℝ, Y k = (r : EReal))
    (b : Fin 4) (i : Fin 4096) : rowKer X Y b i = rowRef X Y b i := by
  unfold rowKer rowRef
  refine (clip_add_univ_inf (sq X b i) fun j => dotNeg2 X Y b i j + sq Y b j).trans ?_
  exact Finset.inf_congr rfl fun j _ => congrArg clip (entry_eq X Y hX hY b i j)

theorem colKer_eq_colRef (X Y : Arr) (hX : ∀ k, ∃ r : ℝ, X k = (r : EReal)) (hY : ∀ k, ∃ r : ℝ, Y k = (r : EReal))
    (b : Fin 4) (j : Fin 4096) : colKer X Y b j = colRef X Y b j := by
  unfold colKer colRef
  refine (clip_add_univ_inf (sq Y b j) fun i => dotNeg2 X Y b i j + sq X b i).trans ?_
  refine Finset.inf_congr rfl fun i _ => congrArg clip ?_
  rw [add_comm (dotNeg2 X Y b i j) (sq X b i), add_left_comm, add_comm (sq Y b j) (dotNeg2 X Y b i j)]
  exact entry_eq X Y hX hY b i j

/-! ## The loss -/

/-- The closing tail is symmetric. -/
theorem tail_comm (a b : EReal) : tail a b = tail b a := by
  unfold tail
  rw [add_comm]

end Bridge

theorem kerLoss_eq_refLoss (X Y : Arr) (hX : ∀ k, ∃ r : ℝ, X k = (r : EReal)) (hY : ∀ k, ∃ r : ℝ, Y k = (r : EReal)) :
    kerLoss X Y = refLoss X Y := by
  unfold kerLoss refLoss
  rw [Bridge.tail_comm]
  have hcol : (∑ b : Fin 4, ∑ j : Fin 4096, colKer X Y b j) = ∑ b : Fin 4, ∑ j : Fin 4096, colRef X Y b j :=
    Finset.sum_congr rfl fun b _ => Finset.sum_congr rfl fun j _ => Bridge.colKer_eq_colRef X Y hX hY b j
  have hrow : (∑ b : Fin 4, ∑ i : Fin 4096, rowKer X Y b i) = ∑ b : Fin 4, ∑ i : Fin 4096, rowRef X Y b i :=
    Finset.sum_congr rfl fun b _ => Finset.sum_congr rfl fun i _ => Bridge.rowKer_eq_rowRef X Y hX hY b i
  rw [hcol, hrow]

end Cert.Chamfer

end
-- ==== Proof.FinitePre.lean ====
/-
  The precondition "every float input is finite", as printed, read back at the ideal instance.

  The printed predicate is  all(|x| < +inf) and all(|y| < +inf):  each  all  is a reduction by  and  of a one-bit array from the
  constant 1 into a result with a single index, and the two results are joined by  and.  If the predicate's one bit is 1 then
  both reductions are 1, so every element of each one-bit array is 1, i.e.  max v (−v) < ⊤  for every entry v of x and of y (the
  word 7F800000 is ⊤).  An extended real v with  max v (−v) < ⊤  is neither ⊤ (then the maximum is ⊤) nor ⊥ (then −v = ⊤), so
  it is a real number.
-/
import proofs.«154106_j14001593385464_2_alg».proof.Pre_finite_inputs
import proofs.«154106_j14001593385464_2_alg».proof.Proof.Gen.Pre_finite_inputs
import Idealize.ShloMosaic.PureOps.Ideal
import Idealize.ShloMosaic.Lib.ReduceAll
import Idealize.ShloMosaic.Lib.ValueIdx

noncomputable section

namespace Cert.Chamfer

open Idealize.ShloMosaic

namespace FinitePre

/-- The word 7F800000 is +∞. -/
theorem lit_inf : Ideal.ofBits .f32 0x7F800000#32 = (⊤ : EReal) := by
  simp [Ideal.ofBits, Ideal.ieee]

/-- An extended real whose absolute value compares below +∞ is a real number. -/
theorem real_of_abs_lt_inf (v : EReal)
    (h : Ideal.cmp .olt (max v (-v)) (Ideal.ofBits .f32 0x7F800000#32) = 1#1) : ∃ r : ℝ, v = (r : EReal) := by
  rw [lit_inf] at h
  induction v with
  | bot => simp [Ideal.cmp] at h
  | coe r => exact ⟨r, rfl⟩
  | top => simp [Ideal.cmp] at h

end FinitePre

theorem finite_of_pre (x y : FVec Ideal Cert.Pre_finite_inputs.S4x4096x128 .f32)
    (h : Cert.Pre_finite_inputs.fn (F := Ideal) x y = fun _ => 1#1) :
    (∀ k, ∃ r : ℝ, x k = (r : EReal)) ∧ (∀ k, ∃ r : ℝ, y k = (r : EReal)) := by
  haveI : Subsingleton Cert.Pre_finite_inputs.S_.Idx := ⟨fun a b => funext fun d => d.elim0⟩
  have e := congrFun h ValueIdx.ix0
  dsimp only [Cert.Pre_finite_inputs.fn] at e
  obtain ⟨e1, e2⟩ := IntOp.andi_eq_one.1 e
  refine ⟨fun k => ?_, fun k => ?_⟩
  · exact FinitePre.real_of_abs_lt_inf (x k) (Host.reduce_andi_all _ _ _ _ _ e1 k)
  · exact FinitePre.real_of_abs_lt_inf (y k) (Host.reduce_andi_all _ _ _ _ _ e2 k)

end Cert.Chamfer

end
-- ==== Proof.lean ====
/-
  The kernel computes the bidirectional chamfer loss of two point clouds X, Y : [4, 4096, 128] without ever forming the clipped
  distance matrix  P[i,j] = clip(‖x_i‖² + ‖y_j‖² − 2·x_i·y_j)  that the reference builds. Per batch it keeps the row norms ‖x_i‖² and
  a copy of −2·x, and for each tile of 512 columns forms  S[i,j] = (−2·x_i)·y_j; since adding a number and clipping are monotone,
    min_i clip(‖x_i‖² + ‖y_j‖² + S[i,j]) = clip(‖y_j‖² + min_i (S[i,j] + ‖x_i‖²))      (a column minimum, complete within the tile),
    min_j clip(‖x_i‖² + ‖y_j‖² + S[i,j]) = clip(‖x_i‖² + min_j (S[i,j] + ‖y_j‖²))      (a row minimum, kept running over the 8 tiles),
  and on finite inputs  ‖x_i‖² + ‖y_j‖² − 2·(x_i·y_j) = ‖x_i‖² + ‖y_j‖² + (−2·x_i)·y_j.  Both programs then average the 4·4096 row minima
  and the 4·4096 column minima, add the two means (in opposite orders) and divide by the batch size.

  The three frames: the two kernels' bodies are run once per kind of grid point (first, middle, last tile of a batch), the three
  scratch buffers carried by the region's invariant at the state the point before left; the reference is host operations only.
  The idealization rewrote nothing. The value: the state after every point in closed form by induction on the point, the two result
  arrays from their blocks, the host tail; the reference read operation by operation; the two arrangements equal on finite inputs.
-/
import proofs.«154106_j14001593385464_2_alg».proof.Defs
import proofs.«154106_j14001593385464_2_alg».proof.Proof.BitsBody.Frame
import proofs.«154106_j14001593385464_2_alg».proof.Proof.IdealBody.Frame
import proofs.«154106_j14001593385464_2_alg».proof.Proof.IdealValue.State
import proofs.«154106_j14001593385464_2_alg».proof.Proof.IdealValue.Arrays
import proofs.«154106_j14001593385464_2_alg».proof.Proof.RefSide
import proofs.«154106_j14001593385464_2_alg».proof.Proof.Bridge
import proofs.«154106_j14001593385464_2_alg».proof.Proof.FinitePre
import proofs.«154106_j14001593385464_2_alg».proof.Proof.Gen.Kernel
import proofs.«154106_j14001593385464_2_alg».proof.Proof.Gen.KernelIdeal
import proofs.«154106_j14001593385464_2_alg».proof.Proof.Gen.ReferenceIdeal
import proofs.«154106_j14001593385464_2_alg».proof.Proof.Gen.ReferenceIdeal.Run
import proofs.«154106_j14001593385464_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Body.frame (F := Bits) m ρ

/-- So does the kernel read over the extended reals. -/
theorem frame_ki : Cert.frame_KernelIdeal := fun m ρ _ => Cert.KernelIdeal.Body.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end at the same extended real: the kernel at the loss in its own arrangement (the state after
    every point, the result arrays from their blocks, the host tail), the reference at the loss in its arrangement, and the two
    arrangements agree when every entry is a real. -/
theorem algebraic : Cert.algebraic_KernelIdeal_ReferenceIdeal := by
  intro m ρ m' ρ' hpre hagree
  refine ⟨fun c => fun _ => Cert.Chamfer.kerLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Arrays.ker_run m ρ
      (fun c t h7 u0 u1 r => (Cert.KernelIdeal.StateVal.inv_all m c t.val t.isLt).row h7 u0 u1 r)
      (fun c t u0 u1 k => (Cert.KernelIdeal.StateVal.inv_all m c t.val t.isLt).col u0 u1 k), ?_⟩
  refine (θ_run Cert.ReferenceIdeal.defs _ _).mono (fun _ h c => ⟨(h c).1.trans ?_, (h c).2⟩) (Cert.Chamfer.Ref.ref_run m' ρ')
  rw [(hagree c).1, (hagree c).2]
  obtain ⟨hx, hy⟩ := Cert.Chamfer.finite_of_pre _ _ (hpre c)
  exact funext fun _ => (Cert.Chamfer.kerLoss_eq_refLoss _ _ hx hy).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
